-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S2x2097152 : Shape := ⟨2, ![2, 2097152]⟩
abbrev S16x16 : Shape := ⟨2, ![16, 16]⟩
abbrev S16 : Shape := ⟨1, ![16]⟩
abbrev S16384x32 : Shape := ⟨2, ![16384, 32]⟩
abbrev S32 : Shape := ⟨1, ![32]⟩
abbrev S32x1024 : Shape := ⟨2, ![32, 1024]⟩
abbrev S1024 : Shape := ⟨1, ![1024]⟩
abbrev S16384x16 : Shape := ⟨2, ![16384, 16]⟩
abbrev S16x1 : Shape := ⟨2, ![16, 1]⟩
abbrev S1 : Shape := ⟨1, ![1]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16384x32 : S_.BroadcastsInDim S16384x32 (![] : Fin 0 → Fin S16384x32.rank)
  reducesTo_S16384x32_S_d0_1 : S16384x32.ReducesTo [0, 1] S_
  bcast_S_S32 : S_.BroadcastsInDim S32 (![] : Fin 0 → Fin S32.rank)
  reducesTo_S32_S_d0 : S32.ReducesTo [0] S_
  bcast_S_S32x1024 : S_.BroadcastsInDim S32x1024 (![] : Fin 0 → Fin S32x1024.rank)
  reducesTo_S32x1024_S_d0_1 : S32x1024.ReducesTo [0, 1] S_
  bcast_S_S1024 : S_.BroadcastsInDim S1024 (![] : Fin 0 → Fin S1024.rank)
  reducesTo_S1024_S_d0 : S1024.ReducesTo [0] S_
  bcast_S_S16384x16 : S_.BroadcastsInDim S16384x16 (![] : Fin 0 → Fin S16384x16.rank)
  reducesTo_S16384x16_S_d0_1 : S16384x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S16x1 .f32) (main_arg13 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x1 .f32 := Host.absf main_arg12
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S32x1024 .f32) (main_arg9 : FVec F S1024 .f32) (main_arg10 : FVec F S16384x16 .f32) (main_arg11 : FVec F S16 .f32) (main_arg12 : FVec F S16x1 .f32) (main_arg13 : FVec F S1 .f32) (main_v33 : IVec S_ 1) : IVec S_ 1 :=
  let main_v34 : FVec F S32x1024 .f32 := Host.absf main_arg8
  let main_cst_12 : FVec F S_ .f32 := constant S_ .f32 0x7F800000#32
  let main_v35 : FVec F S32x1024 .f32 := broadcastInDim S32x1024 ![] bcast_S_S32x1024 main_cst_12
  let main_v36 : IVec S32x1024 1 := cmpf .olt main_v34 main_v35
  let main_c_13 : IVec S_ 1 := constantI S_ 1 1#1
  let main_v37 : IVec S_ 1 := (fun x v => Host.reduce IntOp.andi x v reducesTo_S32x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S16384x16 .f32 := Host.absf main_arg10
  let main_cst_16 : FVec F S_ .f32 := constant S_ .f32 0x7F800000#32
  let main_v45 : FVec F S16384x16 .f32 := broadcastInDim S16384x16 ![] bcast_S_S16384x16 main_cst_16
  let main_v46 : IVec S16384x16 1 := cmpf .olt main_v44 main_v45
  let main_c_17 : IVec S_ 1 := constantI S_ 1 1#1
  let main_v47 : IVec S_ 1 := (fun x v => Host.reduce IntOp.andi x v reducesTo_S16384x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S16 .f32) (main_arg6 : FVec F S16384x32 .f32) (main_arg7 : FVec F S32 .f32) (main_arg8 : FVec F S32x1024 .f32) (main_arg9 : FVec F S1024 .f32) (main_arg10 : FVec F S16384x16 .f32) (main_arg11 : FVec F S16 .f32) (main_arg12 : FVec F S16x1 .f32) (main_arg13 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16384x32 .f32 := Host.absf main_arg6
  let main_cst_8 : FVec F S_ .f32 := constant S_ .f32 0x7F800000#32
  let main_v25 : FVec F S16384x32 .f32 := broadcastInDim S16384x32 ![] bcast_S_S16384x32 main_cst_8
  let main_v26 : IVec S16384x32 1 := cmpf .olt main_v24 main_v25
  let main_c_9 : IVec S_ 1 := constantI S_ 1 1#1
  let main_v27 : IVec S_ 1 := (fun x v => Host.reduce IntOp.andi x v reducesTo_S16384x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S65536x16 .f32) (main_arg1 : IVec S2x2097152 32) (main_arg2 : FVec F S16x16 .f32) (main_arg3 : FVec F S16 .f32) (main_arg4 : FVec F S16x16 .f32) (main_arg5 : FVec F S16 .f32) (main_arg6 : FVec F S16384x32 .f32) (main_arg7 : FVec F S32 .f32) (main_arg8 : FVec F S32x1024 .f32) (main_arg9 : FVec F S1024 .f32) (main_arg10 : FVec F S16384x16 .f32) (main_arg11 : FVec F S16 .f32) (main_arg12 : FVec F S16x1 .f32) (main_arg13 : FVec F S1 .f32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_v13 main_v16
-- ==== Kernel.lean ====
abbrev S65536x16 : Shape := ⟨2, ![65536, 16]⟩
abbrev S2x2097152 : Shape := ⟨2, ![2, 2097152]⟩
abbrev S16x16 : Shape := ⟨2, ![16, 16]⟩
abbrev S16 : Shape := ⟨1, ![16]⟩
abbrev S16384x32 : Shape := ⟨2, ![16384, 32]⟩
abbrev S32 : Shape := ⟨1, ![32]⟩
abbrev S32x1024 : Shape := ⟨2, ![32, 1024]⟩
abbrev S1024 : Shape := ⟨1, ![1024]⟩
abbrev S16384x16 : Shape := ⟨2, ![16384, 16]⟩
abbrev S16x1 : Shape := ⟨2, ![16, 1]⟩
abbrev S1 : Shape := ⟨1, ![1]⟩
abbrev S65536 : Shape := ⟨1, ![65536]⟩
abbrev S1x2097152 : Shape := ⟨2, ![1, 2097152]⟩
abbrev S2097152 : Shape := ⟨1, ![2097152]⟩
abbrev S2162688 : Shape := ⟨1, ![2162688]⟩
abbrev S_ : Shape := ⟨0, ![]⟩
abbrev S2162688x1 : Shape := ⟨2, ![2162688, 1]⟩
abbrev S4096x16 : Shape := ⟨2, ![4096, 16]⟩
abbrev S2162688x16 : Shape := ⟨2, ![2162688, 16]⟩
abbrev S1x16 : Shape := ⟨2, ![1, 16]⟩
abbrev S64x16384 : Shape := ⟨2, ![64, 16384]⟩
abbrev S1x32 : Shape := ⟨2, ![1, 32]⟩
abbrev S1x1024 : Shape := ⟨2, ![1, 1024]⟩
abbrev S1x1 : Shape := ⟨2, ![1, 1]⟩
abbrev S64x1024 : Shape := ⟨2, ![64, 1024]⟩
abbrev S64x1 : Shape := ⟨2, ![64, 1]⟩
abbrev S64x32 : Shape := ⟨2, ![64, 32]⟩
abbrev S64x16 : Shape := ⟨2, ![64, 16]⟩

abbrev nBuf : Space → Nat
  | .hbm => 90
  | .vmem => 27
  | .smem => 0
  | _ => 0

abbrev bufTy : (tb : Table) → Fin (tcTables nBuf tb) → BufTy
  | .hbm, ⟨0, _⟩ => ⟨S65536x16, .f32⟩
  | .hbm, ⟨1, _⟩ => ⟨S2x2097152, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16384x32, .f32⟩
  | .hbm, ⟨7, _⟩ => ⟨S32, .f32⟩
  | .hbm, ⟨8, _⟩ => ⟨S32x1024, .f32⟩
  | .hbm, ⟨9, _⟩ => ⟨S1024, .f32⟩
  | .hbm, ⟨10, _⟩ => ⟨S16384x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S65536, .i32⟩
  | .hbm, ⟨15, _⟩ => ⟨S1x2097152, .i32⟩
  | .hbm, ⟨16, _⟩ => ⟨S2097152, .i32⟩
  | .hbm, ⟨17, _⟩ => ⟨S2162688, .i32⟩
  | .hbm, ⟨18, _⟩ => ⟨S1x2097152, .i32⟩
  | .hbm, ⟨19, _⟩ => ⟨S2097152, .i32⟩
  | .hbm, ⟨20, _⟩ => ⟨S2162688, .i32⟩
  | .hbm, ⟨21, _⟩ => ⟨S_, .f32⟩
  | .hbm, ⟨22, _⟩ => ⟨S2162688, .f32⟩
  | .hbm, ⟨23, _⟩ => ⟨S_, .f32⟩
  | .hbm, ⟨24, _⟩ => ⟨S65536, .f32⟩
  | .hbm, ⟨25, _⟩ => ⟨S2162688x1, .i32⟩
  | .hbm, ⟨26, _⟩ => ⟨S65536, .f32⟩
  | .hbm, ⟨27, _⟩ => ⟨S65536, .f32⟩
  | .hbm, ⟨28, _⟩ => ⟨S_, .i32⟩
  | .hbm, ⟨29, _⟩ => ⟨S2162688, .i32⟩
  | .hbm, ⟨30, _⟩ => ⟨S2162688, .i1⟩
  | .hbm, ⟨31, _⟩ => ⟨S_, .i32⟩
  | .hbm, ⟨32, _⟩ => ⟨S2162688, .i32⟩
  | .hbm, ⟨33, _⟩ => ⟨S2162688, .i32⟩
  | .hbm, ⟨34, _⟩ => ⟨S2162688, .i32⟩
  | .hbm, ⟨35, _⟩ => ⟨S2162688x1, .i32⟩
  | .hbm, ⟨36, _⟩ => ⟨S2162688, .f32⟩
  | .hbm, ⟨37, _⟩ => ⟨S_, .i32⟩
  | .hbm, ⟨38, _⟩ => ⟨S2162688, .i32⟩
  | .hbm, ⟨39, _⟩ => ⟨S2162688, .i1⟩
  | .hbm, ⟨40, _⟩ => ⟨S_, .i32⟩
  | .hbm, ⟨41, _⟩ => ⟨S2162688, .i32⟩
  | .hbm, ⟨42, _⟩ => ⟨S2162688, .i32⟩
  | .hbm, ⟨43, _⟩ => ⟨S2162688, .i32⟩
  | .hbm, ⟨44, _⟩ => ⟨S2162688x1, .i32⟩
  | .hbm, ⟨45, _⟩ => ⟨S2162688, .f32⟩
  | .hbm, ⟨46, _⟩ => ⟨S2162688, .f32⟩
  | .hbm, ⟨47, _⟩ => ⟨S2162688x1, .f32⟩
  | .hbm, ⟨48, _⟩ => ⟨S65536x16, .f32⟩
  | .hbm, ⟨49, _⟩ => ⟨S_, .i32⟩
  | .hbm, ⟨50, _⟩ => ⟨S2162688, .i32⟩
  | .hbm, ⟨51, _⟩ => ⟨S2162688, .i1⟩
  | .hbm, ⟨52, _⟩ => ⟨S_, .i32⟩
  | .hbm, ⟨53, _⟩ => ⟨S2162688, .i32⟩
  | .hbm, ⟨54, _⟩ => ⟨S2162688, .i32⟩
  | .hbm, ⟨55, _⟩ => ⟨S2162688, .i32⟩
  | .hbm, ⟨56, _⟩ => ⟨S2162688x1, .i32⟩
  | .hbm, ⟨57, _⟩ => ⟨S2162688x16, .f32⟩
  | .hbm, ⟨58, _⟩ => ⟨S2162688x16, .f32⟩
  | .hbm, ⟨59, _⟩ => ⟨S2162688x16, .f32⟩
  | .hbm, ⟨60, _⟩ => ⟨S_, .f32⟩
  | .hbm, ⟨61, _⟩ => ⟨S65536x16, .f32⟩
  | .hbm, ⟨62, _⟩ => ⟨S2162688x1, .i32⟩
  | .hbm, ⟨63, _⟩ => ⟨S65536x16, .f32⟩
  | .hbm, ⟨64, _⟩ => ⟨S1x16, .f32⟩
  | .hbm, ⟨65, _⟩ => ⟨S65536x16, .f32⟩
  | .hbm, ⟨66, _⟩ => ⟨S_, .i32⟩
  | .hbm, ⟨67, _⟩ => ⟨S2162688, .i32⟩
  | .hbm, ⟨68, _⟩ => ⟨S2162688, .i1⟩
  | .hbm, ⟨69, _⟩ => ⟨S_, .i32⟩
  | .hbm, ⟨70, _⟩ => ⟨S2162688, .i32⟩
  | .hbm, ⟨71, _⟩ => ⟨S2162688, .i32⟩
  | .hbm, ⟨72, _⟩ => ⟨S2162688, .i32⟩
  | .hbm, ⟨73, _⟩ => ⟨S2162688x1, .i32⟩
  | .hbm, ⟨74, _⟩ => ⟨S2162688x16, .f32⟩
  | .hbm, ⟨75, _⟩ => ⟨S2162688x16, .f32⟩
  | .hbm, ⟨76, _⟩ => ⟨S2162688x16, .f32⟩
  | .hbm, ⟨77, _⟩ => ⟨S_, .f32⟩
  | .hbm, ⟨78, _⟩ => ⟨S65536x16, .f32⟩
  | .hbm, ⟨79, _⟩ => ⟨S2162688x1, .i32⟩
  | .hbm, ⟨80, _⟩ => ⟨S65536x16, .f32⟩
  | .hbm, ⟨81, _⟩ => ⟨S1x16, .f32⟩
  | .hbm, ⟨82, _⟩ => ⟨S65536x16, .f32⟩
  | .hbm, ⟨83, _⟩ => ⟨S64x16384, .f32⟩
  | .hbm, ⟨84, _⟩ => ⟨S1x32, .f32⟩
  | .hbm, ⟨85, _⟩ => ⟨S1x1024, .f32⟩
  | .hbm, ⟨86, _⟩ => ⟨S1x16, .f32⟩
  | .hbm, ⟨87, _⟩ => ⟨S1x1, .f32⟩
  | .hbm, ⟨88, _⟩ => ⟨S64x1024, .f32⟩
  | .hbm, ⟨89, _⟩ => ⟨S64x1, .f32⟩
  | .local _ .vmem, ⟨0, _⟩ => ⟨S4096x16, .f32⟩
  | .local _ .vmem, ⟨1, _⟩ => ⟨S4096x16, .f32⟩
  | .local _ .vmem, ⟨2, _⟩ => ⟨S16x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S1x16, .f32⟩
  | .local _ .vmem, ⟨8, _⟩ => ⟨S16x16, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | .local _ .vmem, ⟨12, _⟩ => ⟨S4096x16, .f32⟩
  | .local _ .vmem, ⟨13, _⟩ => ⟨S1x16, .f32⟩
  | .local _ .vmem, ⟨14, _⟩ => ⟨S4096x16, .f32⟩
  | .local _ .vmem, ⟨15, _⟩ => ⟨S4096x16, .f32⟩
  | .local _ .vmem, ⟨16, _⟩ => ⟨S64x16384, .f32⟩
  | .local _ .vmem, ⟨17, _⟩ => ⟨S16384x32, .f32⟩
  | .local _ .vmem, ⟨18, _⟩ => ⟨S1x32, .f32⟩
  | .local _ .vmem, ⟨19, _⟩ => ⟨S32x1024, .f32⟩
  | .local _ .vmem, ⟨20, _⟩ => ⟨S1x1024, .f32⟩
  | .local _ .vmem, ⟨21, _⟩ => ⟨S16384x16, .f32⟩
  | .local _ .vmem, ⟨22, _⟩ => ⟨S1x16, .f32⟩
  | .local _ .vmem, ⟨23, _⟩ => ⟨S16x1, .f32⟩
  | .local _ .vmem, ⟨24, _⟩ => ⟨S1x1, .f32⟩
  | .local _ .vmem, ⟨25, _⟩ => ⟨S64x1024, .f32⟩
  | .local _ .vmem, ⟨26, _⟩ => ⟨S64x1, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62_0 : Ref sig .tc := ⟨.hbm, 88, rfl⟩
abbrev main_v62_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg9_0 : Ref sig .tc := ⟨.vmem, 25, rfl⟩
abbrev cc3_stg10_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc3_sem8_0 : DmaSem sig := 24
abbrev cc3_sem9_0 : DmaSem sig := 25
abbrev cc3_sem10_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x16384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16384x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16384x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x2097152_S1x2097152_0_0 : S2x2097152.Slices ![0, 0] S1x2097152
  shapeCasts_S1x2097152_S2097152 : S1x2097152.ShapeCasts S2097152
  concatenates_S2097152_S65536_S2162688_d0 : Shape.Concatenates [S2097152, S65536] S2162688 0
  slices_S2x2097152_S1x2097152_1_0 : S2x2097152.Slices ![1, 0] S1x2097152
  bcast_S_S2162688 : S_.BroadcastsInDim S2162688 (![] : Fin 0 → Fin S2162688.rank)
  bcast_S_S65536 : S_.BroadcastsInDim S65536 (![] : Fin 0 → Fin S65536.rank)
  bcast_S2162688_S2162688x1_0 : S2162688.BroadcastsInDim S2162688x1 (![0] : Fin 1 → Fin S2162688x1.rank)
  inb_S4096x16_S4096x16_0_0 : ∀ a, (![0, 0] : Fin 2 → Nat) a + S4096x16.size a ≤ S4096x16.size a
  h_S4096x16 : 0 < S4096x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  bcast_S2162688x1_S2162688x16_0_1 : S2162688x1.BroadcastsInDim S2162688x16 (![0, 1] : Fin 2 → Fin S2162688x16.rank)
  bcast_S_S65536x16 : S_.BroadcastsInDim S65536x16 (![] : Fin 0 → Fin S65536x16.rank)
  shapeCasts_S16_S1x16 : S16.ShapeCasts S1x16
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  shapeCasts_S65536x16_S64x16384 : S65536x16.ShapeCasts S64x16384
  shapeCasts_S32_S1x32 : S32.ShapeCasts S1x32
  shapeCasts_S1024_S1x1024 : S1024.ShapeCasts S1x1024
  shapeCasts_S1_S1x1 : S1.ShapeCasts S1x1
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S16384x32_S16384x32_0_0 : ∀ a, (![0, 0] : Fin 2 → Nat) a + S16384x32.size a ≤ S16384x32.size a
  h_S16384x32 : 0 < S16384x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1024_S32x1024_0_0 : ∀ a, (![0, 0] : Fin 2 → Nat) a + S32x1024.size a ≤ S32x1024.size a
  h_S32x1024 : 0 < S32x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  inb_S16384x16_S16384x16_0_0 : ∀ a, (![0, 0] : Fin 2 → Nat) a + S16384x16.size a ≤ S16384x16.size a
  h_S16384x16 : 0 < S16384x16.numel
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S65536_S2162688x1_S2162688_n_0_0_1_wf : ScatterDims.WF S65536 S2162688x1 S2162688 [] [0] [0] 1
  gather_S65536_S2162688x1_S2162688_n_0_n_n_0_1_1_wf : GatherDims.WF S65536 S2162688x1 S2162688 [] [0] [] [0] [] 1 ![1]
  dot_S4096x16_S16x16_S4096x16_1_0_0_1_n_n_wf : DotDims.WF S4096x16 S16x16 S4096x16 [1] [0] [0] [1] [] []
  gather_S65536x16_S2162688x1_S2162688x16_1_0_n_n_0_1_116_wf : GatherDims.WF S65536x16 S2162688x1 S2162688x16 [1] [0] [] [0] [] 1 ![1, 16]
  scatter_S65536x16_S2162688x1_S2162688x16_1_0_0_1_wf : ScatterDims.WF S65536x16 S2162688x1 S2162688x16 [1] [0] [0] 1
  dot_S64x16384_S16384x32_S64x32_1_0_0_1_n_n_wf : DotDims.WF S64x16384 S16384x32 S64x32 [1] [0] [0] [1] [] []
  dot_S64x32_S32x1024_S64x1024_1_0_0_1_n_n_wf : DotDims.WF S64x32 S32x1024 S64x1024 [1] [0] [0] [1] [] []
  dot_S64x16384_S16384x16_S64x16_1_0_0_1_n_n_wf : DotDims.WF S64x16384 S16384x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S65536x16.size a
  hwx0_0 : ∀ i : grid0.Coords, EltTy.bits .f32 = 32 ∨ (Rect.block (s := S65536x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S65536x16.size a
  hwx0_2 : ∀ i : grid0.Coords, EltTy.bits .f32 = 32 ∨ (Rect.block (s := S65536x16) S4096x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S65536x16.size a
  hwx1_0 : ∀ i : grid1.Coords, EltTy.bits .f32 = 32 ∨ (Rect.block (s := S65536x16) S4096x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S65536x16.size a
  hwx1_3 : ∀ i : grid1.Coords, EltTy.bits .f32 = 32 ∨ (Rect.block (s := S65536x16) S4096x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x16.size a ≤ S65536x16.size a
  hwx2_0 : ∀ i : grid2.Coords, EltTy.bits .f32 = 32 ∨ (Rect.block (s := S65536x16) S4096x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x16.size a ≤ S65536x16.size a
  hwx2_2 : ∀ i : grid2.Coords, EltTy.bits .f32 = 32 ∨ (Rect.block (s := S65536x16) S4096x16.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x16384.size a ≤ S64x16384.size a
  hwx3_0 : ∀ i : grid3.Coords, EltTy.bits .f32 = 32 ∨ (Rect.block (s := S64x16384) S64x16384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x32.size a ≤ S16384x32.size a
  hwx3_1 : ∀ i : grid3.Coords, EltTy.bits .f32 = 32 ∨ (Rect.block (s := S16384x32) S16384x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x1024.size a ≤ S32x1024.size a
  hwx3_3 : ∀ i : grid3.Coords, EltTy.bits .f32 = 32 ∨ (Rect.block (s := S32x1024) S32x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16384x16.size a ≤ S16384x16.size a
  hwx3_5 : ∀ i : grid3.Coords, EltTy.bits .f32 = 32 ∨ (Rect.block (s := S16384x16) S16384x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x1.size a ≤ S16x1.size a
  hwx3_7 : ∀ i : grid3.Coords, EltTy.bits .f32 = 32 ∨ (Rect.block (s := S16x1) S16x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x1024.size a ≤ S64x1024.size a
  hwx3_9 : ∀ i : grid3.Coords, EltTy.bits .f32 = 32 ∨ (Rect.block (s := S64x1024) S64x1024.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x1.size a ≤ S64x1.size a
  hwx3_10 : ∀ i : grid3.Coords, EltTy.bits .f32 = 32 ∨ (Rect.block (s := S64x1) S64x1.size (cc3_transform_10 i) (hinb3_10 i)).WholeWords (EltTy.packing .f32)

variable [Facts₀]

def scatter_S65536_S2162688x1_S2162688_n_0_0_1 : ScatterDims S65536 S2162688x1 S2162688 where
  updateWindowDims := []
  insertedWindowDims := [0]
  scatterDimsToOperandDims := [0]
  indexVectorDim := 1
  wf := scatter_S65536_S2162688x1_S2162688_n_0_0_1_wf
def gather_S65536_S2162688x1_S2162688_n_0_n_n_0_1_1 : GatherDims S65536 S2162688x1 S2162688 where
  offsetDims := []
  collapsedSliceDims := [0]
  operandBatchingDims := []
  startIndicesBatchingDims := []
  startIndexMap := [0]
  indexVectorDim := 1
  sliceSizes := ![1]
  wf := gather_S65536_S2162688x1_S2162688_n_0_n_n_0_1_1_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def gather_S65536x16_S2162688x1_S2162688x16_1_0_n_n_0_1_116 : GatherDims S65536x16 S2162688x1 S2162688x16 where
  offsetDims := [1]
  collapsedSliceDims := [0]
  operandBatchingDims := []
  startIndicesBatchingDims := []
  startIndexMap := [0]
  indexVectorDim := 1
  sliceSizes := ![1, 16]
  wf := gather_S65536x16_S2162688x1_S2162688x16_1_0_n_n_0_1_116_wf
def scatter_S65536x16_S2162688x1_S2162688x16_1_0_0_1 : ScatterDims S65536x16 S2162688x1 S2162688x16 where
  updateWindowDims := [1]
  insertedWindowDims := [0]
  scatterDimsToOperandDims := [0]
  indexVectorDim := 1
  wf := scatter_S65536x16_S2162688x1_S2162688x16_1_0_0_1_wf
def dot_S64x16384_S16384x32_S64x32_1_0_0_1_n_n : DotDims S64x16384 S16384x32 S64x32 where
  lhsContracting := [1]
  rhsContracting := [0]
  lhsNonContracting := [0]
  rhsNonContracting := [1]
  lhsBatch := []
  rhsBatch := []
  wf := dot_S64x16384_S16384x32_S64x32_1_0_0_1_n_n_wf
def dot_S64x32_S32x1024_S64x1024_1_0_0_1_n_n : DotDims S64x32 S32x1024 S64x1024 where
  lhsContracting := [1]
  rhsContracting := [0]
  lhsNonContracting := [0]
  rhsNonContracting := [1]
  lhsBatch := []
  rhsBatch := []
  wf := dot_S64x32_S32x1024_S64x1024_1_0_0_1_n_n_wf
def dot_S64x16384_S16384x16_S64x16_1_0_0_1_n_n : DotDims S64x16384 S16384x16 S64x16 where
  lhsContracting := [1]
  rhsContracting := [0]
  lhsNonContracting := [0]
  rhsNonContracting := [1]
  lhsBatch := []
  rhsBatch := []
  wf := dot_S64x16384_S16384x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4096x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S4096x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S4096x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S4096x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S64x16384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16384x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S32x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S16384x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S16x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v61) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v62_0) S64x1024.size cc3_transform_9 reads3_9 true true 1 stage3_9 sem3_9
    hrank3 hreads3_9 hinb3_9 nbuf3_9 (Memref.isWhole_whole _) hwx3_9 hstage3_9

abbrev win3_10 : Pipeline.Window sig grid3 :=
  Pipeline.Window.ofSpec (Memref.whole main_v62_1) S64x1.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S65536x16 : Shape := ⟨2, ![65536, 16]⟩
abbrev S2x2097152 : Shape := ⟨2, ![2, 2097152]⟩
abbrev S16x16 : Shape := ⟨2, ![16, 16]⟩
abbrev S16 : Shape := ⟨1, ![16]⟩
abbrev S16384x32 : Shape := ⟨2, ![16384, 32]⟩
abbrev S32 : Shape := ⟨1, ![32]⟩
abbrev S32x1024 : Shape := ⟨2, ![32, 1024]⟩
abbrev S1024 : Shape := ⟨1, ![1024]⟩
abbrev S16384x16 : Shape := ⟨2, ![16384, 16]⟩
abbrev S16x1 : Shape := ⟨2, ![16, 1]⟩
abbrev S1 : Shape := ⟨1, ![1]⟩
abbrev S65536 : Shape := ⟨1, ![65536]⟩
abbrev S1x2097152 : Shape := ⟨2, ![1, 2097152]⟩
abbrev S2097152 : Shape := ⟨1, ![2097152]⟩
abbrev S2162688 : Shape := ⟨1, ![2162688]⟩
abbrev S_ : Shape := ⟨0, ![]⟩
abbrev S2162688x1 : Shape := ⟨2, ![2162688, 1]⟩
abbrev S2162688x16 : Shape := ⟨2, ![2162688, 16]⟩
abbrev S1x16 : Shape := ⟨2, ![1, 16]⟩
abbrev S64x16384 : Shape := ⟨2, ![64, 16384]⟩
abbrev S64x32 : Shape := ⟨2, ![64, 32]⟩
abbrev S1x32 : Shape := ⟨2, ![1, 32]⟩
abbrev S64x1024 : Shape := ⟨2, ![64, 1024]⟩
abbrev S1x1024 : Shape := ⟨2, ![1, 1024]⟩
abbrev S64x16 : Shape := ⟨2, ![64, 16]⟩
abbrev S64x1 : Shape := ⟨2, ![64, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S2x2097152, .i32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16384x32, .f32⟩
  | .hbm, ⟨7, _⟩ => ⟨S32, .f32⟩
  | .hbm, ⟨8, _⟩ => ⟨S32x1024, .f32⟩
  | .hbm, ⟨9, _⟩ => ⟨S1024, .f32⟩
  | .hbm, ⟨10, _⟩ => ⟨S16384x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S65536, .i32⟩
  | .hbm, ⟨15, _⟩ => ⟨S1x2097152, .i32⟩
  | .hbm, ⟨16, _⟩ => ⟨S2097152, .i32⟩
  | .hbm, ⟨17, _⟩ => ⟨S2162688, .i32⟩
  | .hbm, ⟨18, _⟩ => ⟨S1x2097152, .i32⟩
  | .hbm, ⟨19, _⟩ => ⟨S2097152, .i32⟩
  | .hbm, ⟨20, _⟩ => ⟨S2162688, .i32⟩
  | .hbm, ⟨21, _⟩ => ⟨S_, .f32⟩
  | .hbm, ⟨22, _⟩ => ⟨S2162688, .f32⟩
  | .hbm, ⟨23, _⟩ => ⟨S_, .f32⟩
  | .hbm, ⟨24, _⟩ => ⟨S65536, .f32⟩
  | .hbm, ⟨25, _⟩ => ⟨S2162688x1, .i32⟩
  | .hbm, ⟨26, _⟩ => ⟨S65536, .f32⟩
  | .hbm, ⟨27, _⟩ => ⟨S65536, .f32⟩
  | .hbm, ⟨28, _⟩ => ⟨S_, .i32⟩
  | .hbm, ⟨29, _⟩ => ⟨S2162688, .i32⟩
  | .hbm, ⟨30, _⟩ => ⟨S2162688, .i1⟩
  | .hbm, ⟨31, _⟩ => ⟨S_, .i32⟩
  | .hbm, ⟨32, _⟩ => ⟨S2162688, .i32⟩
  | .hbm, ⟨33, _⟩ => ⟨S2162688, .i32⟩
  | .hbm, ⟨34, _⟩ => ⟨S2162688, .i32⟩
  | .hbm, ⟨35, _⟩ => ⟨S2162688x1, .i32⟩
  | .hbm, ⟨36, _⟩ => ⟨S2162688, .f32⟩
  | .hbm, ⟨37, _⟩ => ⟨S_, .i32⟩
  | .hbm, ⟨38, _⟩ => ⟨S2162688, .i32⟩
  | .hbm, ⟨39, _⟩ => ⟨S2162688, .i1⟩
  | .hbm, ⟨40, _⟩ => ⟨S_, .i32⟩
  | .hbm, ⟨41, _⟩ => ⟨S2162688, .i32⟩
  | .hbm, ⟨42, _⟩ => ⟨S2162688, .i32⟩
  | .hbm, ⟨43, _⟩ => ⟨S2162688, .i32⟩
  | .hbm, ⟨44, _⟩ => ⟨S2162688x1, .i32⟩
  | .hbm, ⟨45, _⟩ => ⟨S2162688, .f32⟩
  | .hbm, ⟨46, _⟩ => ⟨S2162688, .f32⟩
  | .hbm, ⟨47, _⟩ => ⟨S65536x16, .f32⟩
  | .hbm, ⟨48, _⟩ => ⟨S_, .i32⟩
  | .hbm, ⟨49, _⟩ => ⟨S2162688, .i32⟩
  | .hbm, ⟨50, _⟩ => ⟨S2162688, .i1⟩
  | .hbm, ⟨51, _⟩ => ⟨S_, .i32⟩
  | .hbm, ⟨52, _⟩ => ⟨S2162688, .i32⟩
  | .hbm, ⟨53, _⟩ => ⟨S2162688, .i32⟩
  | .hbm, ⟨54, _⟩ => ⟨S2162688, .i32⟩
  | .hbm, ⟨55, _⟩ => ⟨S2162688x1, .i32⟩
  | .hbm, ⟨56, _⟩ => ⟨S2162688x16, .f32⟩
  | .hbm, ⟨57, _⟩ => ⟨S2162688x1, .f32⟩
  | .hbm, ⟨58, _⟩ => ⟨S2162688x16, .f32⟩
  | .hbm, ⟨59, _⟩ => ⟨S2162688x16, .f32⟩
  | .hbm, ⟨60, _⟩ => ⟨S_, .f32⟩
  | .hbm, ⟨61, _⟩ => ⟨S65536x16, .f32⟩
  | .hbm, ⟨62, _⟩ => ⟨S2162688x1, .i32⟩
  | .hbm, ⟨63, _⟩ => ⟨S65536x16, .f32⟩
  | .hbm, ⟨64, _⟩ => ⟨S1x16, .f32⟩
  | .hbm, ⟨65, _⟩ => ⟨S65536x16, .f32⟩
  | .hbm, ⟨66, _⟩ => ⟨S65536x16, .f32⟩
  | .hbm, ⟨67, _⟩ => ⟨S_, .f32⟩
  | .hbm, ⟨68, _⟩ => ⟨S65536x16, .f32⟩
  | .hbm, ⟨69, _⟩ => ⟨S65536x16, .f32⟩
  | .hbm, ⟨70, _⟩ => ⟨S65536x16, .f32⟩
  | .hbm, ⟨71, _⟩ => ⟨S_, .i32⟩
  | .hbm, ⟨72, _⟩ => ⟨S2162688, .i32⟩
  | .hbm, ⟨73, _⟩ => ⟨S2162688, .i1⟩
  | .hbm, ⟨74, _⟩ => ⟨S_, .i32⟩
  | .hbm, ⟨75, _⟩ => ⟨S2162688, .i32⟩
  | .hbm, ⟨76, _⟩ => ⟨S2162688, .i32⟩
  | .hbm, ⟨77, _⟩ => ⟨S2162688, .i32⟩
  | .hbm, ⟨78, _⟩ => ⟨S2162688x1, .i32⟩
  | .hbm, ⟨79, _⟩ => ⟨S2162688x16, .f32⟩
  | .hbm, ⟨80, _⟩ => ⟨S2162688x1, .f32⟩
  | .hbm, ⟨81, _⟩ => ⟨S2162688x16, .f32⟩
  | .hbm, ⟨82, _⟩ => ⟨S2162688x16, .f32⟩
  | .hbm, ⟨83, _⟩ => ⟨S_, .f32⟩
  | .hbm, ⟨84, _⟩ => ⟨S65536x16, .f32⟩
  | .hbm, ⟨85, _⟩ => ⟨S2162688x1, .i32⟩
  | .hbm, ⟨86, _⟩ => ⟨S65536x16, .f32⟩
  | .hbm, ⟨87, _⟩ => ⟨S1x16, .f32⟩
  | .hbm, ⟨88, _⟩ => ⟨S65536x16, .f32⟩
  | .hbm, ⟨89, _⟩ => ⟨S65536x16, .f32⟩
  | .hbm, ⟨90, _⟩ => ⟨S_, .f32⟩
  | .hbm, ⟨91, _⟩ => ⟨S65536x16, .f32⟩
  | .hbm, ⟨92, _⟩ => ⟨S65536x16, .f32⟩
  | .hbm, ⟨93, _⟩ => ⟨S64x16384, .f32⟩
  | .hbm, ⟨94, _⟩ => ⟨S64x32, .f32⟩
  | .hbm, ⟨95, _⟩ => ⟨S1x32, .f32⟩
  | .hbm, ⟨96, _⟩ => ⟨S64x32, .f32⟩
  | .hbm, ⟨97, _⟩ => ⟨S64x32, .f32⟩
  | .hbm, ⟨98, _⟩ => ⟨S_, .f32⟩
  | .hbm, ⟨99, _⟩ => ⟨S64x32, .f32⟩
  | .hbm, ⟨100, _⟩ => ⟨S64x32, .f32⟩
  | .hbm, ⟨101, _⟩ => ⟨S64x1024, .f32⟩
  | .hbm, ⟨102, _⟩ => ⟨S1x1024, .f32⟩
  | .hbm, ⟨103, _⟩ => ⟨S64x1024, .f32⟩
  | .hbm, ⟨104, _⟩ => ⟨S64x1024, .f32⟩
  | .hbm, ⟨105, _⟩ => ⟨S64x16, .f32⟩
  | .hbm, ⟨106, _⟩ => ⟨S1x16, .f32⟩
  | .hbm, ⟨107, _⟩ => ⟨S64x16, .f32⟩
  | .hbm, ⟨108, _⟩ => ⟨S64x16, .f32⟩
  | .hbm, ⟨109, _⟩ => ⟨S_, .f32⟩
  | .hbm, ⟨110, _⟩ => ⟨S64x16, .f32⟩
  | .hbm, ⟨111, _⟩ => ⟨S64x16, .f32⟩
  | .hbm, ⟨112, _⟩ => ⟨S64x1, .f32⟩
  | .hbm, ⟨113, _⟩ => ⟨S1x1, .f32⟩
  | .hbm, ⟨114, _⟩ => ⟨S64x1, .f32⟩
  | .hbm, ⟨115, _⟩ => ⟨S64x1, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_cst : Ref sig .tc := ⟨.hbm, 67, rfl⟩
abbrev main_call0_v0 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_cst : Ref sig .tc := ⟨.hbm, 90, rfl⟩
abbrev main_call1_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call3_cst : Ref sig .tc := ⟨.hbm, 109, rfl⟩
abbrev main_call3_v0 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  concatenates_S2097152_S65536_S2162688_d0 : Shape.Concatenates [S2097152, S65536] S2162688 0
  slices_S2x2097152_S1x2097152_1_0 : S2x2097152.Slices ![1, 0] S1x2097152
  bcast_S_S2162688 : S_.BroadcastsInDim S2162688 (![] : Fin 0 → Fin S2162688.rank)
  bcast_S_S65536 : S_.BroadcastsInDim S65536 (![] : Fin 0 → Fin S65536.rank)
  bcast_S2162688_S2162688x1_0 : S2162688.BroadcastsInDim S2162688x1 (![0] : Fin 1 → Fin S2162688x1.rank)
  bcast_S2162688x1_S2162688x16_0_1 : S2162688x1.BroadcastsInDim S2162688x16 (![0, 1] : Fin 2 → Fin S2162688x16.rank)
  bcast_S_S65536x16 : S_.BroadcastsInDim S65536x16 (![] : Fin 0 → Fin S65536x16.rank)
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  shapeCasts_S65536x16_S64x16384 : S65536x16.ShapeCasts S64x16384
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S65536_S2162688x1_S2162688_n_0_0_1_wf : ScatterDims.WF S65536 S2162688x1 S2162688 [] [0] [0] 1
  gather_S65536_S2162688x1_S2162688_n_0_n_n_0_1_1_wf : GatherDims.WF S65536 S2162688x1 S2162688 [] [0] [] [0] [] 1 ![1]
  dot_S65536x16_S16x16_S65536x16_1_0_0_1_n_n_wf : DotDims.WF S65536x16 S16x16 S65536x16 [1] [0] [0] [1] [] []
  gather_S65536x16_S2162688x1_S2162688x16_1_0_n_n_0_1_116_wf : GatherDims.WF S65536x16 S2162688x1 S2162688x16 [1] [0] [] [0] [] 1 ![1, 16]
  scatter_S65536x16_S2162688x1_S2162688x16_1_0_0_1_wf : ScatterDims.WF S65536x16 S2162688x1 S2162688x16 [1] [0] [0] 1
  dot_S64x16384_S16384x32_S64x32_1_0_0_1_n_n_wf : DotDims.WF S64x16384 S16384x32 S64x32 [1] [0] [0] [1] [] []
  dot_S64x32_S32x1024_S64x1024_1_0_0_1_n_n_wf : DotDims.WF S64x32 S32x1024 S64x1024 [1] [0] [0] [1] [] []
  dot_S64x16384_S16384x16_S64x16_1_0_0_1_n_n_wf : DotDims.WF S64x16384 S16384x16 S64x16 [1] [0] [0] [1] [] []
  dot_S64x16_S16x1_S64x1_1_0_0_1_n_n_wf : DotDims.WF S64x16 S16x1 S64x1 [1] [0] [0] [1] [] []

variable [Facts₀]

def scatter_S65536_S2162688x1_S2162688_n_0_0_1 : ScatterDims S65536 S2162688x1 S2162688 where
  updateWindowDims := []
  insertedWindowDims := [0]
  scatterDimsToOperandDims := [0]
  indexVectorDim := 1
  wf := scatter_S65536_S2162688x1_S2162688_n_0_0_1_wf
def gather_S65536_S2162688x1_S2162688_n_0_n_n_0_1_1 : GatherDims S65536 S2162688x1 S2162688 where
  offsetDims := []
  collapsedSliceDims := [0]
  operandBatchingDims := []
  startIndicesBatchingDims := []
  startIndexMap := [0]
  indexVectorDim := 1
  sliceSizes := ![1]
  wf := gather_S65536_S2162688x1_S2162688_n_0_n_n_0_1_1_wf
def dot_S65536x16_S16x16_S65536x16_1_0_0_1_n_n : DotDims S65536x16 S16x16 S65536x16 where
  lhsContracting := [1]
  rhsContracting := [0]
  lhsNonContracting := [0]
  rhsNonContracting := [1]
  lhsBatch := []
  rhsBatch := []
  wf := dot_S65536x16_S16x16_S65536x16_1_0_0_1_n_n_wf
def gather_S65536x16_S2162688x1_S2162688x16_1_0_n_n_0_1_116 : GatherDims S65536x16 S2162688x1 S2162688x16 where
  offsetDims := [1]
  collapsedSliceDims := [0]
  operandBatchingDims := []
  startIndicesBatchingDims := []
  startIndexMap := [0]
  indexVectorDim := 1
  sliceSizes := ![1, 16]
  wf := gather_S65536x16_S2162688x1_S2162688x16_1_0_n_n_0_1_116_wf
def scatter_S65536x16_S2162688x1_S2162688x16_1_0_0_1 : ScatterDims S65536x16 S2162688x1 S2162688x16 where
  updateWindowDims := [1]
  insertedWindowDims := [0]
  scatterDimsToOperandDims := [0]
  indexVectorDim := 1
  wf := scatter_S65536x16_S2162688x1_S2162688x16_1_0_0_1_wf
def dot_S64x16384_S16384x32_S64x32_1_0_0_1_n_n : DotDims S64x16384 S16384x32 S64x32 where
  lhsContracting := [1]
  rhsContracting := [0]
  lhsNonContracting := [0]
  rhsNonContracting := [1]
  lhsBatch := []
  rhsBatch := []
  wf := dot_S64x16384_S16384x32_S64x32_1_0_0_1_n_n_wf
def dot_S64x32_S32x1024_S64x1024_1_0_0_1_n_n : DotDims S64x32 S32x1024 S64x1024 where
  lhsContracting := [1]
  rhsContracting := [0]
  lhsNonContracting := [0]
  rhsNonContracting := [1]
  lhsBatch := []
  rhsBatch := []
  wf := dot_S64x32_S32x1024_S64x1024_1_0_0_1_n_n_wf
def dot_S64x16384_S16384x16_S64x16_1_0_0_1_n_n : DotDims S64x16384 S16384x16 S64x16 where
  lhsContracting := [1]
  rhsContracting := [0]
  lhsNonContracting := [0]
  rhsNonContracting := [1]
  lhsBatch := []
  rhsBatch := []
  wf := dot_S64x16384_S16384x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.KernelRun.lean ====
/-
  The idealized kernel's run with the WHOLE final memory read back.

  @main is eight segments: four stretches of host operations and four pipelined regions between them.  The buffer
  contents at the segment boundaries are a fold from the launch memory: a stretch applies its operations in order, a
  region replaces its arrays by what its write-backs leave and keeps every other buffer.  The last boundary's
  contents are `Gen.W8 m ρ c`.  Here the launch theorem for such a chain of segments is instantiated with the post
  "every unscoped buffer of every core ends at the last boundary's contents", so that the two result arrays (and the
  fourteen argument arrays) can be read off the fold afterwards.
-/
import proofs.«111545_j14396730377002_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped buffer
    `b` of each core `c` holds `Gen.W8 m ρ c b`: the contents the fold through the eight segments ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- A TensorCore reference that no region scopes is among the unscoped buffers. -/
theorem mem_uc' (b : Ref sig .tc) (h : ¬ (Proc.devRef .tc b : DevRef τ sig).isScoped) : Proc.devRef .tc b ∈ Pipeline.ucRefs τ sig :=
  mem_uc b h

end Cert.KernelIdeal.RunAll

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.TileDot.lean ====
/-
  One block of rows of a matrix product is the matrix product read at those rows.

  The kernels multiply a block of 4096 rows, `xb : [4096, 16]`, by a whole `[16, 16]` matrix into a zero accumulator;
  the reference multiplies the whole `[65536, 16]` matrix once.  At the ideal values both are the plain sum
  `∑ k, x (row, k) · w (k, col)`, so when `xb` is rows `p·4096 … p·4096 + 4095` of `x` the block product at `(r, col)`
  is the whole product at `(p·4096 + r, col)` (`block_matmul_eq`).
-/
import proofs.«111545_j14396730377002_1_alg».proof.Proof.Gen.KernelIdeal
import proofs.«111545_j14396730377002_1_alg».proof.Proof.Gen.ReferenceIdeal.Read
import Idealize.ShloMosaic.Lib.ValueIdx
import Idealize.ShloMosaic.PureOps.Ideal.Laws

noncomputable section

namespace Cert.TileDot

open Idealize.ShloMosaic Idealize.ShloMosaic.ValueIdx

/-- The block product's record: `[4096, 16] × [16, 16] → [4096, 16]`, contracting the left operand's columns with the
    right operand's rows. -/
abbrev dB := Cert.KernelIdeal.dot_S4096x16_S16x16_S4096x16_1_0_0_1_n_n

theorem lhsB_0 (j : Cert.KernelIdeal.S4096x16.Idx) (q : dB.contr.Idx) : (dB.lhsIdx j q 0).val = (j 0).val := by
  unfold DotDims.lhsIdx
  rw [dif_neg (show ¬(0 : Fin Cert.KernelIdeal.S4096x16.rank) ∈ dB.lhsBatch by decide),
    dif_pos (show (0 : Fin Cert.KernelIdeal.S4096x16.rank) ∈ dB.lhsNonContracting by decide)]
  rfl
theorem lhsB_1 (j : Cert.KernelIdeal.S4096x16.Idx) (q : dB.contr.Idx) : (dB.lhsIdx j q 1).val = (q ⟨0, by decide⟩).val :=
  dB.lhsIdx_val_of_single rfl j q
theorem rhsB_0 (j : Cert.KernelIdeal.S4096x16.Idx) (q : dB.contr.Idx) : (dB.rhsIdx j q 0).val = (q ⟨0, by decide⟩).val :=
  dB.rhsIdx_val_of_single rfl j q
theorem rhsB_1 (j : Cert.KernelIdeal.S4096x16.Idx) (q : dB.contr.Idx) : (dB.rhsIdx j q 1).val = (j 1).val := by
  unfold DotDims.rhsIdx
  rw [dif_neg (show ¬(1 : Fin Cert.KernelIdeal.S16x16.rank) ∈ dB.rhsBatch by decide),
    dif_pos (show (1 : Fin Cert.KernelIdeal.S16x16.rank) ∈ dB.rhsNonContracting by decide)]
  rfl

/-- The block product into a zero accumulator, read at `(r, col)`: the sum over the sixteen contracted positions. -/
theorem block_matmul_apply (xb : FVec Ideal Cert.KernelIdeal.S4096x16 .bf16) (wb : FVec Ideal Cert.KernelIdeal.S16x16 .bf16)
    (r : Fin 4096) (col : Fin 16) :
    matmul dB none xb wb (constant Cert.KernelIdeal.S4096x16 .f32 0x00000000#32) (ix2 r col)
      = ∑ k : Fin 16, xb (ix2 r k) * wb (ix2 k col) := by
  show FloatOps.matmul dB none xb wb (constant Cert.KernelIdeal.S4096x16 .f32 0x00000000#32) (ix2 r col) = _
  rw [Ideal.matmul_constant_zero_apply, ← Equiv.sum_comp (contrEquiv1 dB 16 rfl rfl).symm]
  refine Finset.sum_congr rfl fun k _ => ?_
  have hk := contrEquiv1_symm_val dB 16 rfl rfl k
  have el : dB.lhsIdx (ix2 r col) ((contrEquiv1 dB 16 rfl rfl).symm k) = ix2 r k := funext fun a => Fin.ext (by
    match a with
    | ⟨0, _⟩ => exact lhsB_0 _ _
    | ⟨1, _⟩ => exact (lhsB_1 _ _).trans hk)
  have er : dB.rhsIdx (ix2 r col) ((contrEquiv1 dB 16 rfl rfl).symm k) = ix2 k col := funext fun a => Fin.ext (by
    match a with
    | ⟨0, _⟩ => exact (rhsB_0 _ _).trans hk
    | ⟨1, _⟩ => exact rhsB_1 _ _)
  rw [el, er]

/-- The whole product of the reference, read at `(row, col)`. -/
theorem whole_dot_apply (x : FVec Ideal Cert.ReferenceIdeal.S65536x16 .f32) (w : FVec Ideal Cert.ReferenceIdeal.S16x16 .f32)
    (row : Fin 65536) (col : Fin 16) :
    Host.dotGeneral Cert.ReferenceIdeal.dot_S65536x16_S16x16_S65536x16_1_0_0_1_n_n none x w (ix2 row col)
      = ∑ k : Fin 16, x (ix2 row k) * w (ix2 k col) := by
  have h := Cert.ReferenceIdeal.Read.val_main_v27_apply x w (ix2 row col)
  unfold Cert.ReferenceIdeal.Read.val_main_v27 at h
  rw [h]
  refine Finset.sum_congr rfl fun k _ => ?_
  have el : Cert.ReferenceIdeal.Read.lidx_main_v27 (ix2 row col) k = ix2 row k := funext fun a => by
    match a with
    | ⟨0, _⟩ => rfl
    | ⟨1, _⟩ => rfl
  have er : Cert.ReferenceIdeal.Read.ridx_main_v27 (ix2 row col) k = ix2 k col := funext fun a => by
    match a with
    | ⟨0, _⟩ => rfl
    | ⟨1, _⟩ => rfl
  rw [el, er]

/-- A block of 4096 rows times the whole right operand is the whole product at those rows. -/
theorem block_matmul_eq (x : FVec Ideal Cert.ReferenceIdeal.S65536x16 .f32) (w : FVec Ideal Cert.ReferenceIdeal.S16x16 .f32)
    (xb : FVec Ideal Cert.KernelIdeal.S4096x16 .bf16) (wb : FVec Ideal Cert.KernelIdeal.S16x16 .bf16)
    (p : Nat) (hp : p < 16)
    (hx : ∀ (r : Fin 4096) (k : Fin 16), xb (ix2 r k) = x (ix2 (⟨p * 4096 + r.val, by omega⟩ : Fin 65536) k))
    (hw : ∀ (k col : Fin 16), wb (ix2 k col) = w (ix2 k col))
    (r : Fin 4096) (col : Fin 16) :
    matmul dB none xb wb (constant Cert.KernelIdeal.S4096x16 .f32 0x00000000#32) (ix2 r col)
      = Host.dotGeneral Cert.ReferenceIdeal.dot_S65536x16_S16x16_S65536x16_1_0_0_1_n_n none x w
          (ix2 (⟨p * 4096 + r.val, by omega⟩ : Fin 65536) col) := by
  rw [block_matmul_apply, whole_dot_apply]
  exact Finset.sum_congr rfl fun k _ => by rw [hx, hw]

end Cert.TileDot

end
-- ==== Proof.Region0.lean ====
/-
  Region 0: the first projection `x @ W1`, sixteen blocks of 4096 rows.

  Grid point `t` loads rows `4096 t … 4096 t + 4095` of the node features (window 0) and the whole weight matrix
  (window 1), multiplies them into a zero accumulator and writes the product back as the same rows of the result
  (window 2).  The sixteen blocks tile the result's 65536 rows, so after the region the result array is the whole
  product of the two arrays as the region found them: `array_eq`.
-/
import proofs.«111545_j14396730377002_1_alg».proof.Proof.Gen.KernelIdeal.Frame
import proofs.«111545_j14396730377002_1_alg».proof.Proof.TileDot
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 2 take block row `t`, window 1 always the one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product the reference computes, of the two arrays the region reads. -/
abbrev product (x : FVec Ideal Cert.ReferenceIdeal.S65536x16 .f32) (w : FVec Ideal Cert.ReferenceIdeal.S16x16 .f32) :
    FVec Ideal Cert.ReferenceIdeal.S65536x16 .f32 :=
  Host.dotGeneral Cert.ReferenceIdeal.dot_S65536x16_S16x16_S65536x16_1_0_0_1_n_n none x w

/-- What point `t` writes back is block `t` of the whole product. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S4096x16) hz, View.ld_unit_zero (S := S16x16) hz]
  obtain ⟨e0, e1, e2, e3, e4, e5⟩ := idx_facts t
  have htN : t.val < 16 := by have h := t.isLt; have hN : cfg0.N = 16 := N_0; omega
  funext j
  obtain ⟨r, col, rfl⟩ : ∃ (r : Fin 4096) (col : Fin 16), j = ix2 r col := ⟨j 0, j 1, eq_ix2 j⟩
  have hemb : ((cfg0.win 2).blk t).view.emb (ix2 r col) = ix2 (⟨t.val * 4096 + r.val, by omega⟩ : Fin 65536) col := by
    funext a; apply Fin.ext
    match a with
    | ⟨0, _⟩ => show win0_2.index t (0 : Fin 2) * 4096 + 1 * r.val = t.val * 4096 + r.val; omega
    | ⟨1, _⟩ => show win0_2.index t (1 : Fin 2) * 16 + 1 * col.val = col.val; omega
  show matmul Cert.TileDot.dB none (truncf .bf16 (iblk0 V c 0 t) bitsLt_bf16_f32) (truncf .bf16 (iblk0 V c 1 t) bitsLt_bf16_f32)
      (constant S4096x16 .f32 0x00000000#32) (ix2 r col)
    = product (V c main_arg0) (V c main_arg2) (((cfg0.win 2).blk t).view.emb (ix2 r col))
  rw [hemb]
  refine Cert.TileDot.block_matmul_eq (V c main_arg0) (V c main_arg2) _ _ t.val htN ?_ ?_ r col
  · intro r' k
    show V c main_arg0 (((cfg0.win 0).blk t).view.emb (ix2 r' k)) = V c main_arg0 _
    refine congrArg (V c main_arg0) ?_
    funext a; apply Fin.ext
    match a with
    | ⟨0, _⟩ => show win0_0.index t (0 : Fin 2) * 4096 + 1 * r'.val = t.val * 4096 + r'.val; omega
    | ⟨1, _⟩ => show win0_0.index t (1 : Fin 2) * 16 + 1 * k.val = k.val; omega
  · intro k col'
    show V c main_arg2 (((cfg0.win 1).blk t).view.emb (ix2 k col')) = V c main_arg2 _
    refine congrArg (V c main_arg2) ?_
    funext a; apply Fin.ext
    match a with
    | ⟨0, _⟩ => show win0_1.index t (0 : Fin 2) * 16 + 1 * k.val = k.val; omega
    | ⟨1, _⟩ => show win0_1.index t (1 : Fin 2) * 16 + 1 * col'.val = col'.val; omega

/-- An index of the result array lies in point `t`'s block iff each coordinate is in the block's range. -/
theorem mem_blk (t : Fin cfg0.N) (i : S65536x16.Idx) :
    i ∈ ((cfg0.win 2).blk t).view.set ↔ ∀ a : Fin 2, win0_2.index t a * S4096x16.size a ≤ (i a).val ∧ (i a).val < win0_2.index t a * S4096x16.size a + S4096x16.size a := by
  show i ∈ ((View.whole main_v28).slice (win0_2.rect t)).set ↔ _
  rw [View.set_slice_whole, Rect.mem_set_unit]
  exact Iff.rfl

/-- Row `ρ` of the result lies in the block of point `ρ / 4096`: the sixteen blocks cover the array. -/
theorem cover (i : S65536x16.Idx) : ∃ t : Fin cfg0.N, (cfg0.win 2).flush t = true ∧ i ∈ ((cfg0.win 2).blk t).view.set := by
  have hi0 : (i 0).val < 65536 := (i 0).isLt
  have hi1 : (i 1).val < 16 := (i 1).isLt
  let t : Fin cfg0.N := ⟨(i 0).val / 4096, by rw [show cfg0.N = 16 from N_0]; omega⟩
  obtain ⟨e0, e1, e2, e3, e4, e5⟩ := idx_facts t
  have ht : t.val = (i 0).val / 4096 := rfl
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 16 ≤ (i 1).val ∧ (i 1).val < win0_2.index t (1 : Fin 2) * 16 + 16; omega

/-- After the region the result array is the whole product of the arrays the region read. -/
theorem array_eq (c : Dev nD) :
    (dat0 V c).arrAt 2 cfg0.N = product (V c main_arg0) (V c main_arg2) :=
  (dat0 V c).arrAt_eq_of_cover 2 _ (fun t _ => flushed_eq V c t) cover

end Cert.KernelIdeal.Region0

end
-- ==== Proof.BiasRelu.lean ====
/-
  Bias and ReLU, `max (a + b, 0)` with the bias vector `b` laid along every row, on one block of rows and on the
  whole array.

  The kernels compute it on a block of 4096 rows: the bias arrives as a one-row matrix, is broadcast down the block's
  rows, added, and the maximum with a splat of zero taken.  The reference computes it on all 65536 rows at once, the
  one-row bias broadcast along both axes and the zero broadcast from a scalar constant.  Entry `(r, k)` of the block
  of rows `p·4096 …` is entry `(p·4096 + r, k)` of the whole: `block_eq`.
-/
import proofs.«111545_j14396730377002_1_alg».proof.Proof.Gen.KernelIdeal
import proofs.«111545_j14396730377002_1_alg».proof.Proof.Gen.ReferenceIdeal
import proofs.«111545_j14396730377002_1_alg».proof.Proof.LibRows
import Idealize.ShloMosaic.Lib.ValueIdx
import Idealize.ShloMosaic.Lib.KernelVsHost

noncomputable section

namespace Cert.BiasRelu

open Idealize.ShloMosaic Idealize.ShloMosaic.ValueIdx

/-- The reference's `max (a + b, 0)` on the whole `[65536, 16]` array, `b` a one-row matrix. -/
abbrev whole (a : FVec Ideal Cert.ReferenceIdeal.S65536x16 .f32) (b : FVec Ideal Cert.ReferenceIdeal.S1x16 .f32) :
    FVec Ideal Cert.ReferenceIdeal.S65536x16 .f32 :=
  maximumf (addf a (broadcastInDim Cert.ReferenceIdeal.S65536x16 ![0, 1] Cert.ReferenceIdeal.Gen.bcast_S1x16_S65536x16_0_1 b))
    (broadcastInDim Cert.ReferenceIdeal.S65536x16 ![] Cert.ReferenceIdeal.Gen.bcast_S_S65536x16
      (constant Cert.ReferenceIdeal.S_ .f32 0x00000000#32))

/-- The kernels' `max (a + b, 0)` on one block of 4096 rows. -/
abbrev block (v0 : FVec Ideal Cert.KernelIdeal.S4096x16 .f32) (v2 : FVec Ideal Cert.KernelIdeal.S1x16 .f32) :
    FVec Ideal Cert.KernelIdeal.S4096x16 .f32 :=
  maximumf (addf (shapeCast Cert.KernelIdeal.S4096x16 v0 Cert.KernelIdeal.Gen.shapeCasts_S4096x16_S4096x16)
      (broadcastTo Cert.KernelIdeal.S4096x16 (shapeCast Cert.KernelIdeal.S1x16 v2 Cert.KernelIdeal.Gen.shapeCasts_S1x16_S1x16)
        Cert.KernelIdeal.Gen.broadcasts_S1x16_S4096x16))
    (broadcast Cert.KernelIdeal.S4096x16 (Scalar.ofBits .f32 0x00000000#32))

/-- Entry `(r, k)` of the block computed from rows `p·4096 …` of `a` and the same bias row is entry
    `(p·4096 + r, k)` of the whole. -/
theorem block_eq (a : FVec Ideal Cert.ReferenceIdeal.S65536x16 .f32) (b : FVec Ideal Cert.ReferenceIdeal.S1x16 .f32)
    (v0 : FVec Ideal Cert.KernelIdeal.S4096x16 .f32) (v2 : FVec Ideal Cert.KernelIdeal.S1x16 .f32)
    (p : Nat) (hp : p < 16) (r : Fin 4096) (k : Fin 16)
    (h0 : v0 (ix2 r k) = a (ix2 (⟨p * 4096 + r.val, by omega⟩ : Fin 65536) k))
    (h2 : v2 (ix2 (0 : Fin 1) k) = b (ix2 (0 : Fin 1) k)) :
    block v0 v2 (ix2 r k) = whole a b (ix2 (⟨p * 4096 + r.val, by omega⟩ : Fin 65536) k) := by
  have e1 := Cert.LibRows.broadcastTo_oneRow_apply v2 Cert.KernelIdeal.Gen.shapeCasts_S1x16_S1x16
    Cert.KernelIdeal.Gen.broadcasts_S1x16_S4096x16 r k
  have e2 := broadcastInDim_oneRow_apply Cert.ReferenceIdeal.Gen.bcast_S1x16_S65536x16_0_1 b
    (⟨p * 4096 + r.val, by omega⟩ : Fin 65536) k
  show max (shapeCast Cert.KernelIdeal.S4096x16 v0 Cert.KernelIdeal.Gen.shapeCasts_S4096x16_S4096x16 (ix2 r k)
        + broadcastTo Cert.KernelIdeal.S4096x16 (shapeCast Cert.KernelIdeal.S1x16 v2 Cert.KernelIdeal.Gen.shapeCasts_S1x16_S1x16)
            Cert.KernelIdeal.Gen.broadcasts_S1x16_S4096x16 (ix2 r k)) (Ideal.ofBits .f32 0x00000000#32)
      = max (a (ix2 (⟨p * 4096 + r.val, by omega⟩ : Fin 65536) k)
        + broadcastInDim Cert.ReferenceIdeal.S65536x16 ![0, 1] Cert.ReferenceIdeal.Gen.bcast_S1x16_S65536x16_0_1 b
            (ix2 (⟨p * 4096 + r.val, by omega⟩ : Fin 65536) k)) (Ideal.ofBits .f32 0x00000000#32)
  rw [shapeCast_self, e1, e2, h0, h2]

end Cert.BiasRelu

end
-- ==== Proof.Region1.lean ====
/-
  Region 1: `relu (agg + b1) @ W2`, sixteen blocks of 4096 rows.

  Grid point `t` loads rows `4096 t … 4096 t + 4095` of the aggregated messages (window 0), the bias as a one-row
  matrix (window 1) and the whole weight matrix (window 2); it adds the bias along every row, takes the maximum with
  zero, multiplies by the weights into a zero accumulator and writes the block back as the same rows of the result
  (window 3).  Entry by entry the bias-and-ReLU of a block is the bias-and-ReLU of the whole array at the block's
  rows, and a block of rows of a product is the product at those rows; the sixteen blocks tile the result, so after
  the region the result array is the reference's `dot_general` of `max (agg + b1, 0)` with the weights: `array_eq`.
-/
import proofs.«111545_j14396730377002_1_alg».proof.Proof.Gen.KernelIdeal.Frame
import proofs.«111545_j14396730377002_1_alg».proof.Proof.TileDot
import proofs.«111545_j14396730377002_1_alg».proof.Proof.BiasRelu
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 3 take block row `t`, windows 1 and 2 always the one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The reference's second projection: the whole product of `max (a + b, 0)` with the weights. -/
abbrev projected (a : FVec Ideal Cert.ReferenceIdeal.S65536x16 .f32) (b : FVec Ideal Cert.ReferenceIdeal.S1x16 .f32)
    (w : FVec Ideal Cert.ReferenceIdeal.S16x16 .f32) : FVec Ideal Cert.ReferenceIdeal.S65536x16 .f32 :=
  Host.dotGeneral Cert.ReferenceIdeal.dot_S65536x16_S16x16_S65536x16_1_0_0_1_n_n none (Cert.BiasRelu.whole a b) w

/-- What point `t` writes back is block `t` of that array. -/
theorem flushed_eq (c : Dev nD) (t : Fin cfg1.N) :
    (dat1 V c).flushed 3 t
      = ((cfg1.win 3).blk t).view.read (Elt Ideal) (projected (V c main_v40) (V c main_v41) (V c main_arg4)) := by
  show (cfg1.win 3).cut (grid1.coords t) ((dat1 V c).after 3 t) = _
  rw [after1_3]
  unfold out1_3
  rw [View.canon_unit_zero hz]
  simp only [View.ld_unit_zero (S := S4096x16) hz, View.ld_unit_zero (S := S1x16) hz, View.ld_unit_zero (S := S16x16) hz]
  obtain ⟨e0, e1, e2, e3, e4, e5, e6, e7⟩ := idx_facts t
  have htN : t.val < 16 := by have h := t.isLt; have hN : cfg1.N = 16 := N_1; omega
  funext j
  obtain ⟨r, col, rfl⟩ : ∃ (r : Fin 4096) (col : Fin 16), j = ix2 r col := ⟨j 0, j 1, eq_ix2 j⟩
  have hemb : ((cfg1.win 3).blk t).view.emb (ix2 r col) = ix2 (⟨t.val * 4096 + r.val, by omega⟩ : Fin 65536) col := by
    funext a; apply Fin.ext
    match a with
    | ⟨0, _⟩ => show win1_3.index t (0 : Fin 2) * 4096 + 1 * r.val = t.val * 4096 + r.val; omega
    | ⟨1, _⟩ => show win1_3.index t (1 : Fin 2) * 16 + 1 * col.val = col.val; omega
  show matmul Cert.TileDot.dB none
      (truncf .bf16 (Cert.BiasRelu.block (iblk1 V c 0 t) (iblk1 V c 1 t)) bitsLt_bf16_f32)
      (truncf .bf16 (iblk1 V c 2 t) bitsLt_bf16_f32) (constant S4096x16 .f32 0x00000000#32) (ix2 r col)
    = projected (V c main_v40) (V c main_v41) (V c main_arg4) (((cfg1.win 3).blk t).view.emb (ix2 r col))
  rw [hemb]
  refine Cert.TileDot.block_matmul_eq (Cert.BiasRelu.whole (V c main_v40) (V c main_v41)) (V c main_arg4) _ _ t.val htN ?_ ?_ r col
  · intro r' k
    show Cert.BiasRelu.block (iblk1 V c 0 t) (iblk1 V c 1 t) (ix2 r' k) = _
    refine Cert.BiasRelu.block_eq (V c main_v40) (V c main_v41) (iblk1 V c 0 t) (iblk1 V c 1 t) t.val htN r' k ?_ ?_
    · show V c main_v40 (((cfg1.win 0).blk t).view.emb (ix2 r' k)) = V c main_v40 _
      refine congrArg (V c main_v40) ?_
      funext a; apply Fin.ext
      match a with
      | ⟨0, _⟩ => show win1_0.index t (0 : Fin 2) * 4096 + 1 * r'.val = t.val * 4096 + r'.val; omega
      | ⟨1, _⟩ => show win1_0.index t (1 : Fin 2) * 16 + 1 * k.val = k.val; omega
    · show V c main_v41 (((cfg1.win 1).blk t).view.emb (ix2 (0 : Fin 1) k)) = V c main_v41 _
      refine congrArg (V c main_v41) ?_
      funext a; apply Fin.ext
      match a with
      | ⟨0, _⟩ => show win1_1.index t (0 : Fin 2) * 1 + 1 * 0 = 0; omega
      | ⟨1, _⟩ => show win1_1.index t (1 : Fin 2) * 16 + 1 * k.val = k.val; omega
  · intro k col'
    show V c main_arg4 (((cfg1.win 2).blk t).view.emb (ix2 k col')) = V c main_arg4 _
    refine congrArg (V c main_arg4) ?_
    funext a; apply Fin.ext
    match a with
    | ⟨0, _⟩ => show win1_2.index t (0 : Fin 2) * 16 + 1 * k.val = k.val; omega
    | ⟨1, _⟩ => show win1_2.index t (1 : Fin 2) * 16 + 1 * col'.val = col'.val; omega

/-- An index of the result array lies in point `t`'s block iff each coordinate is in the block's range. -/
theorem mem_blk (t : Fin cfg1.N) (i : S65536x16.Idx) :
    i ∈ ((cfg1.win 3).blk t).view.set ↔ ∀ a : Fin 2, win1_3.index t a * S4096x16.size a ≤ (i a).val ∧ (i a).val < win1_3.index t a * S4096x16.size a + S4096x16.size a := by
  show i ∈ ((View.whole main_v42).slice (win1_3.rect t)).set ↔ _
  rw [View.set_slice_whole, Rect.mem_set_unit]
  exact Iff.rfl

/-- Row `ρ` of the result lies in the block of point `ρ / 4096`: the sixteen blocks cover the array. -/
theorem cover (i : S65536x16.Idx) : ∃ t : Fin cfg1.N, (cfg1.win 3).flush t = true ∧ i ∈ ((cfg1.win 3).blk t).view.set := by
  have hi0 : (i 0).val < 65536 := (i 0).isLt
  have hi1 : (i 1).val < 16 := (i 1).isLt
  let t : Fin cfg1.N := ⟨(i 0).val / 4096, by rw [show cfg1.N = 16 from N_1]; omega⟩
  obtain ⟨e0, e1, e2, e3, e4, e5, e6, e7⟩ := idx_facts t
  have ht : t.val = (i 0).val / 4096 := rfl
  refine ⟨t, flush1_3 t, ?_⟩
  rw [mem_blk]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 16 ≤ (i 1).val ∧ (i 1).val < win1_3.index t (1 : Fin 2) * 16 + 16; omega

/-- After the region the result array is the reference's second projection of the arrays the region read. -/
theorem array_eq (c : Dev nD) :
    (dat1 V c).arrAt 3 cfg1.N = projected (V c main_v40) (V c main_v41) (V c main_arg4) :=
  (dat1 V c).arrAt_eq_of_cover 3 _ (fun t _ => flushed_eq V c t) cover

end Cert.KernelIdeal.Region1

end
-- ==== Proof.Region2.lean ====
/-
  Region 2: `relu (agg + b2)`, sixteen blocks of 4096 rows.

  Grid point `t` loads rows `4096 t … 4096 t + 4095` of the aggregated messages (window 0) and the bias as a one-row
  matrix (window 1), adds the bias along every row, takes the maximum with zero and writes the block back as the same
  rows of the result (window 2).  Entry by entry that is the reference's `max (agg + b2, 0)` on the whole array, and the
  sixteen blocks tile the result: `array_eq`.
-/
import proofs.«111545_j14396730377002_1_alg».proof.Proof.Gen.KernelIdeal.Frame
import proofs.«111545_j14396730377002_1_alg».proof.Proof.BiasRelu
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: windows 0 and 2 take block row `t`, window 1 always the one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole array's bias-and-ReLU. -/
theorem flushed_eq (c : Dev nD) (t : Fin cfg2.N) :
    (dat2 V c).flushed 2 t
      = ((cfg2.win 2).blk t).view.read (Elt Ideal) (Cert.BiasRelu.whole (V c main_v54) (V c main_v55)) := by
  show (cfg2.win 2).cut (grid2.coords t) ((dat2 V c).after 2 t) = _
  rw [after2_2]
  unfold out2_2
  rw [View.canon_unit_zero hz]
  simp only [View.ld_unit_zero (S := S4096x16) hz, View.ld_unit_zero (S := S1x16) hz]
  obtain ⟨e0, e1, e2, e3, e4, e5⟩ := idx_facts t
  have htN : t.val < 16 := by have h := t.isLt; have hN : cfg2.N = 16 := N_2; omega
  funext j
  obtain ⟨r, col, rfl⟩ : ∃ (r : Fin 4096) (col : Fin 16), j = ix2 r col := ⟨j 0, j 1, eq_ix2 j⟩
  have hemb : ((cfg2.win 2).blk t).view.emb (ix2 r col) = ix2 (⟨t.val * 4096 + r.val, by omega⟩ : Fin 65536) col := by
    funext a; apply Fin.ext
    match a with
    | ⟨0, _⟩ => show win2_2.index t (0 : Fin 2) * 4096 + 1 * r.val = t.val * 4096 + r.val; omega
    | ⟨1, _⟩ => show win2_2.index t (1 : Fin 2) * 16 + 1 * col.val = col.val; omega
  show Cert.BiasRelu.block (iblk2 V c 0 t) (iblk2 V c 1 t) (ix2 r col)
    = Cert.BiasRelu.whole (V c main_v54) (V c main_v55) (((cfg2.win 2).blk t).view.emb (ix2 r col))
  rw [hemb]
  refine Cert.BiasRelu.block_eq (V c main_v54) (V c main_v55) (iblk2 V c 0 t) (iblk2 V c 1 t) t.val htN r col ?_ ?_
  · show V c main_v54 (((cfg2.win 0).blk t).view.emb (ix2 r col)) = V c main_v54 _
    refine congrArg (V c main_v54) ?_
    funext a; apply Fin.ext
    match a with
    | ⟨0, _⟩ => show win2_0.index t (0 : Fin 2) * 4096 + 1 * r.val = t.val * 4096 + r.val; omega
    | ⟨1, _⟩ => show win2_0.index t (1 : Fin 2) * 16 + 1 * col.val = col.val; omega
  · show V c main_v55 (((cfg2.win 1).blk t).view.emb (ix2 (0 : Fin 1) col)) = V c main_v55 _
    refine congrArg (V c main_v55) ?_
    funext a; apply Fin.ext
    match a with
    | ⟨0, _⟩ => show win2_1.index t (0 : Fin 2) * 1 + 1 * 0 = 0; omega
    | ⟨1, _⟩ => show win2_1.index t (1 : Fin 2) * 16 + 1 * col.val = col.val; omega

/-- An index of the result array lies in point `t`'s block iff each coordinate is in the block's range. -/
theorem mem_blk (t : Fin cfg2.N) (i : S65536x16.Idx) :
    i ∈ ((cfg2.win 2).blk t).view.set ↔ ∀ a : Fin 2, win2_2.index t a * S4096x16.size a ≤ (i a).val ∧ (i a).val < win2_2.index t a * S4096x16.size a + S4096x16.size a := by
  show i ∈ ((View.whole main_v56).slice (win2_2.rect t)).set ↔ _
  rw [View.set_slice_whole, Rect.mem_set_unit]
  exact Iff.rfl

/-- Row `ρ` of the result lies in the block of point `ρ / 4096`: the sixteen blocks cover the array. -/
theorem cover (i : S65536x16.Idx) : ∃ t : Fin cfg2.N, (cfg2.win 2).flush t = true ∧ i ∈ ((cfg2.win 2).blk t).view.set := by
  have hi0 : (i 0).val < 65536 := (i 0).isLt
  have hi1 : (i 1).val < 16 := (i 1).isLt
  let t : Fin cfg2.N := ⟨(i 0).val / 4096, by rw [show cfg2.N = 16 from N_2]; omega⟩
  obtain ⟨e0, e1, e2, e3, e4, e5⟩ := idx_facts t
  have ht : t.val = (i 0).val / 4096 := rfl
  refine ⟨t, flush2_2 t, ?_⟩
  rw [mem_blk]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 16 ≤ (i 1).val ∧ (i 1).val < win2_2.index t (1 : Fin 2) * 16 + 16; omega

/-- After the region the result array is the reference's `max (agg + b2, 0)` of the arrays the region read. -/
theorem array_eq (c : Dev nD) :
    (dat2 V c).arrAt 2 cfg2.N = Cert.BiasRelu.whole (V c main_v54) (V c main_v55) :=
  (dat2 V c).arrAt_eq_of_cover 2 _ (fun t _ => flushed_eq V c t) cover

end Cert.KernelIdeal.Region2

end
-- ==== Proof.Region3.lean ====
/-
  Region 3: the policy and value heads, one grid point, every block a whole array.

  The body reads the flattened node states `hf : [64, 16384]`, four weight matrices and four biases (each a one-row
  matrix) and stores
    policy = relu (hf @ p1_w + p1_b) @ p2_w + p2_b      : [64, 1024]
    value  = relu (hf @ v1_w + v1_b) @ v2_w + v2_b      : [64, 1]
  each product into a zero accumulator, each bias broadcast down the rows, each ReLU a maximum with a splat of zero.
  At the ideal values a product into a zero accumulator is the reference's `dot_general`, the row broadcast is the
  reference's broadcast along both axes and the splat is the reference's broadcast of a scalar zero, so the two stored
  values are the reference's terms of the arrays the region reads (`policy_payload`, `value_payload`); the single
  block covers each result array (`policy_array`, `value_array`).
-/
import proofs.«111545_j14396730377002_1_alg».proof.Proof.Gen.KernelIdeal.Frame
import proofs.«111545_j14396730377002_1_alg».proof.Proof.Gen.ReferenceIdeal
import proofs.«111545_j14396730377002_1_alg».proof.Proof.LibRows
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The reference's policy head of the flattened states, the two weight matrices and the two one-row biases. -/
abbrev policy (hf : FVec Ideal Cert.ReferenceIdeal.S64x16384 .f32) (w1 : FVec Ideal Cert.ReferenceIdeal.S16384x32 .f32)
    (b1 : FVec Ideal Cert.ReferenceIdeal.S1x32 .f32) (w2 : FVec Ideal Cert.ReferenceIdeal.S32x1024 .f32)
    (b2 : FVec Ideal Cert.ReferenceIdeal.S1x1024 .f32) : FVec Ideal Cert.ReferenceIdeal.S64x1024 .f32 :=
  addf (Host.dotGeneral Cert.ReferenceIdeal.dot_S64x32_S32x1024_S64x1024_1_0_0_1_n_n none
      (maximumf (addf (Host.dotGeneral Cert.ReferenceIdeal.dot_S64x16384_S16384x32_S64x32_1_0_0_1_n_n none hf w1)
          (broadcastInDim Cert.ReferenceIdeal.S64x32 ![0, 1] Cert.ReferenceIdeal.Gen.bcast_S1x32_S64x32_0_1 b1))
        (broadcastInDim Cert.ReferenceIdeal.S64x32 ![] Cert.ReferenceIdeal.Gen.bcast_S_S64x32
          (constant Cert.ReferenceIdeal.S_ .f32 0x00000000#32))) w2)
    (broadcastInDim Cert.ReferenceIdeal.S64x1024 ![0, 1] Cert.ReferenceIdeal.Gen.bcast_S1x1024_S64x1024_0_1 b2)

/-- The reference's value head. -/
abbrev value (hf : FVec Ideal Cert.ReferenceIdeal.S64x16384 .f32) (w1 : FVec Ideal Cert.ReferenceIdeal.S16384x16 .f32)
    (b1 : FVec Ideal Cert.ReferenceIdeal.S1x16 .f32) (w2 : FVec Ideal Cert.ReferenceIdeal.S16x1 .f32)
    (b2 : FVec Ideal Cert.ReferenceIdeal.S1x1 .f32) : FVec Ideal Cert.ReferenceIdeal.S64x1 .f32 :=
  addf (Host.dotGeneral Cert.ReferenceIdeal.dot_S64x16_S16x1_S64x1_1_0_0_1_n_n none
      (maximumf (addf (Host.dotGeneral Cert.ReferenceIdeal.dot_S64x16384_S16384x16_S64x16_1_0_0_1_n_n none hf w1)
          (broadcastInDim Cert.ReferenceIdeal.S64x16 ![0, 1] Cert.ReferenceIdeal.Gen.bcast_S1x16_S64x16_0_1 b1))
        (broadcastInDim Cert.ReferenceIdeal.S64x16 ![] Cert.ReferenceIdeal.Gen.bcast_S_S64x16
          (constant Cert.ReferenceIdeal.S_ .f32 0x00000000#32))) w2)
    (broadcastInDim Cert.ReferenceIdeal.S64x1 ![0, 1] Cert.ReferenceIdeal.Gen.bcast_S1x1_S64x1_0_1 b2)

/-- The stored policy block is the reference's policy head of the loaded blocks. -/
theorem policy_payload (v0 : FVec Ideal S64x16384 .f32) (v3 : FVec Ideal S16384x32 .f32) (v6 : FVec Ideal S1x32 .f32)
    (v13 : FVec Ideal S32x1024 .f32) (v16 : FVec Ideal S1x1024 .f32) :
    k3_pay3 (F := Ideal) v0 v3 v6 v13 v16 = policy v0 v3 v6 v13 v16 := by
  unfold k3_pay3 k3_pay2
  show addf (matmul dot_S64x32_S32x1024_S64x1024_1_0_0_1_n_n none
        (maximumf (addf (matmul dot_S64x16384_S16384x32_S64x32_1_0_0_1_n_n none
              (shapeCast S64x16384 v0 shapeCasts_S64x16384_S64x16384) v3 (constant S64x32 .f32 0x00000000#32))
            (broadcastTo S64x32 (shapeCast S1x32 v6 shapeCasts_S1x32_S1x32) broadcasts_S1x32_S64x32))
          (broadcast S64x32 (Scalar.ofBits .f32 0x00000000#32))) v13 (constant S64x1024 .f32 0x00000000#32))
      (broadcastTo S64x1024 (shapeCast S1x1024 v16 shapeCasts_S1x1024_S1x1024) broadcasts_S1x1024_S64x1024) = _
  rw [shapeCast_self v0, matmul_zero_eq_dotGeneral, matmul_zero_eq_dotGeneral,
    Cert.LibRows.broadcastTo_oneRow_eq_broadcastInDim v6 _ _ Cert.ReferenceIdeal.Gen.bcast_S1x32_S64x32_0_1,
    Cert.LibRows.broadcastTo_oneRow_eq_broadcastInDim v16 _ _ Cert.ReferenceIdeal.Gen.bcast_S1x1024_S64x1024_0_1]
  rfl

/-- The stored value block is the reference's value head of the loaded blocks. -/
theorem value_payload (v0 : FVec Ideal S64x16384 .f32) (v21 : FVec Ideal S16384x16 .f32) (v24 : FVec Ideal S1x16 .f32)
    (v31 : FVec Ideal S16x1 .f32) (v34 : FVec Ideal S1x1 .f32) :
    k3_pay1 (F := Ideal) (k3_pay4 v0 v21 v24 v31) v34 = value v0 v21 v24 v31 v34 := by
  unfold k3_pay1 k3_pay4 k3_pay2
  show addf (matmul dot_S64x16_S16x1_S64x1_1_0_0_1_n_n none
        (maximumf (addf (matmul dot_S64x16384_S16384x16_S64x16_1_0_0_1_n_n none
              (shapeCast S64x16384 v0 shapeCasts_S64x16384_S64x16384) v21 (constant S64x16 .f32 0x00000000#32))
            (broadcastTo S64x16 (shapeCast S1x16 v24 shapeCasts_S1x16_S1x16) broadcasts_S1x16_S64x16))
          (broadcast S64x16 (Scalar.ofBits .f32 0x00000000#32))) v31 (constant S64x1 .f32 0x00000000#32))
      (broadcastTo S64x1 (shapeCast S1x1 v34 shapeCasts_S1x1_S1x1) broadcasts_S1x1_S64x1) = _
  rw [shapeCast_self v0, matmul_zero_eq_dotGeneral, matmul_zero_eq_dotGeneral,
    Cert.LibRows.broadcastTo_oneRow_eq_broadcastInDim v24 _ _ Cert.ReferenceIdeal.Gen.bcast_S1x16_S64x16_0_1,
    Cert.LibRows.broadcastTo_oneRow_eq_broadcastInDim v34 _ _ Cert.ReferenceIdeal.Gen.bcast_S1x1_S64x1_0_1]
  rfl

/-- Every window's one block starts at the array's origin. -/
theorem idx_facts : ∀ t : Fin cfg3.N, (∀ a : Fin 2, win3_0.index t a = 0) ∧ (∀ a : Fin 2, win3_1.index t a = 0)
    ∧ (∀ a : Fin 2, win3_2.index t a = 0) ∧ (∀ a : Fin 2, win3_3.index t a = 0) ∧ (∀ a : Fin 2, win3_4.index t a = 0)
    ∧ (∀ a : Fin 2, win3_5.index t a = 0) ∧ (∀ a : Fin 2, win3_6.index t a = 0) ∧ (∀ a : Fin 2, win3_7.index t a = 0)
    ∧ (∀ a : Fin 2, win3_8.index t a = 0) ∧ (∀ a : Fin 2, win3_9.index t a = 0) ∧ (∀ a : Fin 2, win3_10.index t a = 0) :=
  (by decide +kernel : ∀ t : Fin grid3.N, _)

/-- Window 0's one block is its whole array. -/
theorem block0 (c : Dev nD) (t : Fin cfg3.N) : (iblk3 V c 0 t : FVec Ideal S64x16384 .f32) = V c main_v57 := funext fun y => by
  have h0 := (idx_facts t).1 0
  have h1 := (idx_facts t).1 1
  show V c main_v57 (((cfg3.win 0).blk t).view.emb y) = V c main_v57 y
  refine congrArg (V c main_v57) ?_
  funext a; apply Fin.ext
  match a with
  | ⟨0, _⟩ => show win3_0.index t (0 : Fin 2) * 64 + 1 * (y 0).val = (y 0).val; omega
  | ⟨1, _⟩ => show win3_0.index t (1 : Fin 2) * 16384 + 1 * (y 1).val = (y 1).val; omega

/-- Window 1's one block is its whole array. -/
theorem block1 (c : Dev nD) (t : Fin cfg3.N) : (iblk3 V c 1 t : FVec Ideal S16384x32 .f32) = V c main_arg6 := funext fun y => by
  have h0 := (idx_facts t).2.1 0
  have h1 := (idx_facts t).2.1 1
  show V c main_arg6 (((cfg3.win 1).blk t).view.emb y) = V c main_arg6 y
  refine congrArg (V c main_arg6) ?_
  funext a; apply Fin.ext
  match a with
  | ⟨0, _⟩ => show win3_1.index t (0 : Fin 2) * 16384 + 1 * (y 0).val = (y 0).val; omega
  | ⟨1, _⟩ => show win3_1.index t (1 : Fin 2) * 32 + 1 * (y 1).val = (y 1).val; omega

/-- Window 2's one block is its whole array. -/
theorem block2 (c : Dev nD) (t : Fin cfg3.N) : (iblk3 V c 2 t : FVec Ideal S1x32 .f32) = V c main_v58 := funext fun y => by
  have h0 := (idx_facts t).2.2.1 0
  have h1 := (idx_facts t).2.2.1 1
  show V c main_v58 (((cfg3.win 2).blk t).view.emb y) = V c main_v58 y
  refine congrArg (V c main_v58) ?_
  funext a; apply Fin.ext
  match a with
  | ⟨0, _⟩ => show win3_2.index t (0 : Fin 2) * 1 + 1 * (y 0).val = (y 0).val; omega
  | ⟨1, _⟩ => show win3_2.index t (1 : Fin 2) * 32 + 1 * (y 1).val = (y 1).val; omega

/-- Window 3's one block is its whole array. -/
theorem block3 (c : Dev nD) (t : Fin cfg3.N) : (iblk3 V c 3 t : FVec Ideal S32x1024 .f32) = V c main_arg8 := funext fun y => by
  have h0 := (idx_facts t).2.2.2.1 0
  have h1 := (idx_facts t).2.2.2.1 1
  show V c main_arg8 (((cfg3.win 3).blk t).view.emb y) = V c main_arg8 y
  refine congrArg (V c main_arg8) ?_
  funext a; apply Fin.ext
  match a with
  | ⟨0, _⟩ => show win3_3.index t (0 : Fin 2) * 32 + 1 * (y 0).val = (y 0).val; omega
  | ⟨1, _⟩ => show win3_3.index t (1 : Fin 2) * 1024 + 1 * (y 1).val = (y 1).val; omega

/-- Window 4's one block is its whole array. -/
theorem block4 (c : Dev nD) (t : Fin cfg3.N) : (iblk3 V c 4 t : FVec Ideal S1x1024 .f32) = V c main_v59 := funext fun y => by
  have h0 := (idx_facts t).2.2.2.2.1 0
  have h1 := (idx_facts t).2.2.2.2.1 1
  show V c main_v59 (((cfg3.win 4).blk t).view.emb y) = V c main_v59 y
  refine congrArg (V c main_v59) ?_
  funext a; apply Fin.ext
  match a with
  | ⟨0, _⟩ => show win3_4.index t (0 : Fin 2) * 1 + 1 * (y 0).val = (y 0).val; omega
  | ⟨1, _⟩ => show win3_4.index t (1 : Fin 2) * 1024 + 1 * (y 1).val = (y 1).val; omega

/-- Window 5's one block is its whole array. -/
theorem block5 (c : Dev nD) (t : Fin cfg3.N) : (iblk3 V c 5 t : FVec Ideal S16384x16 .f32) = V c main_arg10 := funext fun y => by
  have h0 := (idx_facts t).2.2.2.2.2.1 0
  have h1 := (idx_facts t).2.2.2.2.2.1 1
  show V c main_arg10 (((cfg3.win 5).blk t).view.emb y) = V c main_arg10 y
  refine congrArg (V c main_arg10) ?_
  funext a; apply Fin.ext
  match a with
  | ⟨0, _⟩ => show win3_5.index t (0 : Fin 2) * 16384 + 1 * (y 0).val = (y 0).val; omega
  | ⟨1, _⟩ => show win3_5.index t (1 : Fin 2) * 16 + 1 * (y 1).val = (y 1).val; omega

/-- Window 6's one block is its whole array. -/
theorem block6 (c : Dev nD) (t : Fin cfg3.N) : (iblk3 V c 6 t : FVec Ideal S1x16 .f32) = V c main_v60 := funext fun y => by
  have h0 := (idx_facts t).2.2.2.2.2.2.1 0
  have h1 := (idx_facts t).2.2.2.2.2.2.1 1
  show V c main_v60 (((cfg3.win 6).blk t).view.emb y) = V c main_v60 y
  refine congrArg (V c main_v60) ?_
  funext a; apply Fin.ext
  match a with
  | ⟨0, _⟩ => show win3_6.index t (0 : Fin 2) * 1 + 1 * (y 0).val = (y 0).val; omega
  | ⟨1, _⟩ => show win3_6.index t (1 : Fin 2) * 16 + 1 * (y 1).val = (y 1).val; omega

/-- Window 7's one block is its whole array. -/
theorem block7 (c : Dev nD) (t : Fin cfg3.N) : (iblk3 V c 7 t : FVec Ideal S16x1 .f32) = V c main_arg12 := funext fun y => by
  have h0 := (idx_facts t).2.2.2.2.2.2.2.1 0
  have h1 := (idx_facts t).2.2.2.2.2.2.2.1 1
  show V c main_arg12 (((cfg3.win 7).blk t).view.emb y) = V c main_arg12 y
  refine congrArg (V c main_arg12) ?_
  funext a; apply Fin.ext
  match a with
  | ⟨0, _⟩ => show win3_7.index t (0 : Fin 2) * 16 + 1 * (y 0).val = (y 0).val; omega
  | ⟨1, _⟩ => show win3_7.index t (1 : Fin 2) * 1 + 1 * (y 1).val = (y 1).val; omega

/-- Window 8's one block is its whole array. -/
theorem block8 (c : Dev nD) (t : Fin cfg3.N) : (iblk3 V c 8 t : FVec Ideal S1x1 .f32) = V c main_v61 := funext fun y => by
  have h0 := (idx_facts t).2.2.2.2.2.2.2.2.1 0
  have h1 := (idx_facts t).2.2.2.2.2.2.2.2.1 1
  show V c main_v61 (((cfg3.win 8).blk t).view.emb y) = V c main_v61 y
  refine congrArg (V c main_v61) ?_
  funext a; apply Fin.ext
  match a with
  | ⟨0, _⟩ => show win3_8.index t (0 : Fin 2) * 1 + 1 * (y 0).val = (y 0).val; omega
  | ⟨1, _⟩ => show win3_8.index t (1 : Fin 2) * 1 + 1 * (y 1).val = (y 1).val; omega

/-- What the one point writes back to window 9 is the whole policy array. -/
theorem flushed9_eq (c : Dev nD) (t : Fin cfg3.N) :
    (dat3 V c).flushed 9 t = ((cfg3.win 9).blk t).view.read (Elt Ideal) (policy (V c main_v57) (V c main_arg6) (V c main_v58) (V c main_arg8) (V c main_v59)) := by
  show (cfg3.win 9).cut (grid3.coords t) ((dat3 V c).after 9 t) = _
  rw [after3_9]
  unfold out3_9
  rw [View.canon_unit_zero hz]
  simp only [View.ld_unit_zero (S := S64x16384) hz, View.ld_unit_zero (S := S16384x32) hz, View.ld_unit_zero (S := S1x32) hz, View.ld_unit_zero (S := S32x1024) hz, View.ld_unit_zero (S := S1x1024) hz]
  rw [block0 V c t, block1 V c t, block2 V c t, block3 V c t, block4 V c t,
    policy_payload (V c main_v57) (V c main_arg6) (V c main_v58) (V c main_arg8) (V c main_v59)]
  have h0 := (idx_facts t).2.2.2.2.2.2.2.2.2.1 0
  have h1 := (idx_facts t).2.2.2.2.2.2.2.2.2.1 1
  funext j
  show policy (V c main_v57) (V c main_arg6) (V c main_v58) (V c main_arg8) (V c main_v59) j = policy (V c main_v57) (V c main_arg6) (V c main_v58) (V c main_arg8) (V c main_v59) (((cfg3.win 9).blk t).view.emb j)
  refine congrArg _ ?_
  funext a; apply Fin.ext
  match a with
  | ⟨0, _⟩ => show (j 0).val = win3_9.index t (0 : Fin 2) * 64 + 1 * (j 0).val; omega
  | ⟨1, _⟩ => show (j 1).val = win3_9.index t (1 : Fin 2) * 1024 + 1 * (j 1).val; omega

/-- An index of window 9's array lies in the one block iff each coordinate is in the block's range. -/
theorem mem_blk9 (t : Fin cfg3.N) (i : S64x1024.Idx) :
    i ∈ ((cfg3.win 9).blk t).view.set ↔ ∀ a : Fin 2, win3_9.index t a * S64x1024.size a ≤ (i a).val ∧ (i a).val < win3_9.index t a * S64x1024.size a + S64x1024.size a := by
  show i ∈ ((View.whole main_v62_0).slice (win3_9.rect t)).set ↔ _
  rw [View.set_slice_whole, Rect.mem_set_unit]
  exact Iff.rfl

/-- The one block covers the array. -/
theorem cover9 (i : S64x1024.Idx) : ∃ t : Fin cfg3.N, (cfg3.win 9).flush t = true ∧ i ∈ ((cfg3.win 9).blk t).view.set := by
  have hi0 : (i 0).val < 64 := (i 0).isLt
  have hi1 : (i 1).val < 1024 := (i 1).isLt
  let t : Fin cfg3.N := ⟨0, by rw [show cfg3.N = 1 from N_3]; omega⟩
  have h0 := (idx_facts t).2.2.2.2.2.2.2.2.2.1 0
  have h1 := (idx_facts t).2.2.2.2.2.2.2.2.2.1 1
  refine ⟨t, flush3_9 t, ?_⟩
  rw [mem_blk9]
  intro a
  match a with
  | ⟨0, _⟩ => show win3_9.index t (0 : Fin 2) * 64 ≤ (i 0).val ∧ (i 0).val < win3_9.index t (0 : Fin 2) * 64 + 64; omega
  | ⟨1, _⟩ => show win3_9.index t (1 : Fin 2) * 1024 ≤ (i 1).val ∧ (i 1).val < win3_9.index t (1 : Fin 2) * 1024 + 1024; omega

/-- What the one point writes back to window 10 is the whole value array. -/
theorem flushed10_eq (c : Dev nD) (t : Fin cfg3.N) :
    (dat3 V c).flushed 10 t = ((cfg3.win 10).blk t).view.read (Elt Ideal) (value (V c main_v57) (V c main_arg10) (V c main_v60) (V c main_arg12) (V c main_v61)) := by
  show (cfg3.win 10).cut (grid3.coords t) ((dat3 V c).after 10 t) = _
  rw [after3_10]
  unfold out3_10
  rw [View.canon_unit_zero hz]
  simp only [View.ld_unit_zero (S := S64x16384) hz, View.ld_unit_zero (S := S16384x16) hz, View.ld_unit_zero (S := S1x16) hz, View.ld_unit_zero (S := S16x1) hz, View.ld_unit_zero (S := S1x1) hz]
  rw [block0 V c t, block5 V c t, block6 V c t, block7 V c t, block8 V c t,
    value_payload (V c main_v57) (V c main_arg10) (V c main_v60) (V c main_arg12) (V c main_v61)]
  have h0 := (idx_facts t).2.2.2.2.2.2.2.2.2.2 0
  have h1 := (idx_facts t).2.2.2.2.2.2.2.2.2.2 1
  funext j
  show value (V c main_v57) (V c main_arg10) (V c main_v60) (V c main_arg12) (V c main_v61) j = value (V c main_v57) (V c main_arg10) (V c main_v60) (V c main_arg12) (V c main_v61) (((cfg3.win 10).blk t).view.emb j)
  refine congrArg _ ?_
  funext a; apply Fin.ext
  match a with
  | ⟨0, _⟩ => show (j 0).val = win3_10.index t (0 : Fin 2) * 64 + 1 * (j 0).val; omega
  | ⟨1, _⟩ => show (j 1).val = win3_10.index t (1 : Fin 2) * 1 + 1 * (j 1).val; omega

/-- An index of window 10's array lies in the one block iff each coordinate is in the block's range. -/
theorem mem_blk10 (t : Fin cfg3.N) (i : S64x1.Idx) :
    i ∈ ((cfg3.win 10).blk t).view.set ↔ ∀ a : Fin 2, win3_10.index t a * S64x1.size a ≤ (i a).val ∧ (i a).val < win3_10.index t a * S64x1.size a + S64x1.size a := by
  show i ∈ ((View.whole main_v62_1).slice (win3_10.rect t)).set ↔ _
  rw [View.set_slice_whole, Rect.mem_set_unit]
  exact Iff.rfl

/-- The one block covers the array. -/
theorem cover10 (i : S64x1.Idx) : ∃ t : Fin cfg3.N, (cfg3.win 10).flush t = true ∧ i ∈ ((cfg3.win 10).blk t).view.set := by
  have hi0 : (i 0).val < 64 := (i 0).isLt
  have hi1 : (i 1).val < 1 := (i 1).isLt
  let t : Fin cfg3.N := ⟨0, by rw [show cfg3.N = 1 from N_3]; omega⟩
  have h0 := (idx_facts t).2.2.2.2.2.2.2.2.2.2 0
  have h1 := (idx_facts t).2.2.2.2.2.2.2.2.2.2 1
  refine ⟨t, flush3_10 t, ?_⟩
  rw [mem_blk10]
  intro a
  match a with
  | ⟨0, _⟩ => show win3_10.index t (0 : Fin 2) * 64 ≤ (i 0).val ∧ (i 0).val < win3_10.index t (0 : Fin 2) * 64 + 64; omega
  | ⟨1, _⟩ => show win3_10.index t (1 : Fin 2) * 1 ≤ (i 1).val ∧ (i 1).val < win3_10.index t (1 : Fin 2) * 1 + 1; omega

/-- After the region the policy result array is the reference's policy head of the arrays the region read. -/
theorem policy_array (c : Dev nD) :
    (dat3 V c).arrAt 9 cfg3.N = policy (V c main_v57) (V c main_arg6) (V c main_v58) (V c main_arg8) (V c main_v59) :=
  (dat3 V c).arrAt_eq_of_cover 9 _ (fun t _ => flushed9_eq V c t) cover9

/-- After the region the value result array is the reference's value head of the arrays the region read. -/
theorem value_array (c : Dev nD) :
    (dat3 V c).arrAt 10 cfg3.N = value (V c main_v57) (V c main_arg10) (V c main_v60) (V c main_arg12) (V c main_v61) :=
  (dat3 V c).arrAt_eq_of_cover 10 _ (fun t _ => flushed10_eq V c t) cover10

end Cert.KernelIdeal.Region3

end
-- ==== Proof.Fold.lean ====
/-
  The buffer contents at the boundaries of the idealized kernel's eight segments, read back as the reference's stages.

  @main alternates stretches of host operations with the four regions.  `Gen.W1 … Gen.W8` are the contents of a
  core's buffers after each segment, a fold from the launch memory.  Walking the fold forward, each buffer a later
  segment reads is identified with the reference's value of the same quantity as a function of the argument arrays
  (the stage functions `val_main_vN` of the reference's run):

    * the source and destination index vectors with the self-loops appended, and the symmetric normalisation
      `dinv[src] · dinv[dst]` as a column, are computed by the same host operations on both sides;
    * region 0 leaves `x @ W1`; the gather, scaling and scatter-add that follow are the same host operations on both
      sides, so the aggregate equals the reference's; the bias reshaped to one row is the reference's broadcast of it;
    * region 1 leaves `relu (agg1 + b1) @ W2`, the host operations aggregate again, region 2 leaves
      `relu (agg2 + b2)`, the reshape to `[64, 16384]` is the same operation on both sides;
    * region 3 leaves the policy and value heads.

  An argument array is never written, so at every boundary it still holds its launch contents.
-/
import proofs.«111545_j14396730377002_1_alg».proof.Proof.Gen.KernelIdeal.Frame
import proofs.«111545_j14396730377002_1_alg».proof.Proof.Gen.ReferenceIdeal.Read
import proofs.«111545_j14396730377002_1_alg».proof.Proof.LibRows
import proofs.«111545_j14396730377002_1_alg».proof.Proof.Region0
import proofs.«111545_j14396730377002_1_alg».proof.Proof.Region1
import proofs.«111545_j14396730377002_1_alg».proof.Proof.Region2
import proofs.«111545_j14396730377002_1_alg».proof.Proof.Region3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## After the first stretch of host operations (region 0's entry) -/

theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl

/-- The source indices with the self-loops appended. -/
theorem W1_src : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
/-- The destination indices with the self-loops appended. -/
theorem W1_dst : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl
/-- The normalisation `dinv[src] · dinv[dst]`, as a column. -/
theorem W1_norm : W1 m ρ c (Proc.devRef .tc main_v27) = Cert.ReferenceIdeal.Read.val_main_v35 (F := Ideal) (m ((c : Thread nD τ).loc main_arg1)) := by
  show StableHlo.after hostOps0 (W0 m ρ c) (Proc.devRef .tc main_v27) = _
  after_results_simp <;> rfl

/-! ## After region 0 -/

theorem W2_src : W2 m ρ c (Proc.devRef .tc main_v3) = Cert.ReferenceIdeal.Read.val_main_v3 (F := Ideal) (m ((c : Thread nD τ).loc main_arg1)) :=
  (W2_of_ne m ρ c main_v3 (by decide)).trans (W1_src m ρ c)
theorem W2_dst : W2 m ρ c (Proc.devRef .tc main_v6) = Cert.ReferenceIdeal.Read.val_main_v6 (F := Ideal) (m ((c : Thread nD τ).loc main_arg1)) :=
  (W2_of_ne m ρ c main_v6 (by decide)).trans (W1_dst m ρ c)
theorem W2_norm : W2 m ρ c (Proc.devRef .tc main_v27) = Cert.ReferenceIdeal.Read.val_main_v35 (F := Ideal) (m ((c : Thread nD τ).loc main_arg1)) :=
  (W2_of_ne m ρ c main_v27 (by decide)).trans (W1_norm m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)

/-- Region 0 leaves the first projection `x @ W1`. -/
theorem W2_hw1 : W2 m ρ c (Proc.devRef .tc main_v28) = Cert.ReferenceIdeal.Read.val_main_v27 (F := Ideal) (m ((c : Thread nD τ).loc main_arg0)) (m ((c : Thread nD τ).loc main_arg2)) := by
  refine (W2_arr m ρ c 2).trans ((Cert.KernelIdeal.Region0.array_eq (V1 m ρ) c).trans ?_)
  show Cert.KernelIdeal.Region0.product (W1 m ρ c (Proc.devRef .tc main_arg0)) (W1 m ρ c (Proc.devRef .tc main_arg2)) = _
  rw [W1_arg0, W1_arg2]
  rfl

/-! ## After the second stretch (region 1's entry) -/

theorem W3_src : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact W2_src m ρ c
theorem W3_dst : W3 m ρ c (Proc.devRef .tc main_v6) = Cert.ReferenceIdeal.Read.val_main_v6 (F := Ideal) (m ((c : Thread nD τ).loc main_arg1)) := by
  show StableHlo.after hostOps1 (W2 m ρ c) (Proc.devRef .tc main_v6) = _
  after_results_simp
  exact W2_dst m ρ c
theorem W3_norm : W3 m ρ c (Proc.devRef .tc main_v27) = Cert.ReferenceIdeal.Read.val_main_v35 (F := Ideal) (m ((c : Thread nD τ).loc main_arg1)) := by
  show StableHlo.after hostOps1 (W2 m ρ c) (Proc.devRef .tc main_v27) = _
  after_results_simp
  exact W2_norm m ρ c
theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c

/-- The first aggregate: gather the projected rows at the sources, scale by the normalisation, scatter-add at the
    destinations. -/
theorem W3_agg1 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_src, W2_dst, W2_norm, W2_hw1]
  rfl
/-- The first bias as a one-row matrix: the kernel's reshape is the reference's broadcast along axis 1. -/
theorem W3_b1 : W3 m ρ c (Proc.devRef .tc main_v41) = Cert.ReferenceIdeal.Read.val_main_v41 (F := Ideal) (m ((c : Thread nD τ).loc main_arg3)) := by
  show StableHlo.after hostOps1 (W2 m ρ c) (Proc.devRef .tc main_v41) = _
  after_results_simp
  rw [W2_arg3]
  exact Cert.LibRows.shapeCast_row_eq_broadcastInDim _ _ _

/-! ## After region 1 -/

theorem W4_src : W4 m ρ c (Proc.devRef .tc main_v3) = Cert.ReferenceIdeal.Read.val_main_v3 (F := Ideal) (m ((c : Thread nD τ).loc main_arg1)) :=
  (W4_of_ne m ρ c main_v3 (by decide)).trans (W3_src m ρ c)
theorem W4_dst : W4 m ρ c (Proc.devRef .tc main_v6) = Cert.ReferenceIdeal.Read.val_main_v6 (F := Ideal) (m ((c : Thread nD τ).loc main_arg1)) :=
  (W4_of_ne m ρ c main_v6 (by decide)).trans (W3_dst m ρ c)
theorem W4_norm : W4 m ρ c (Proc.devRef .tc main_v27) = Cert.ReferenceIdeal.Read.val_main_v35 (F := Ideal) (m ((c : Thread nD τ).loc main_arg1)) :=
  (W4_of_ne m ρ c main_v27 (by decide)).trans (W3_norm m ρ c)
theorem W4_arg5 : W4 m ρ c (Proc.devRef .tc main_arg5) = (m ((c : Thread nD τ).loc main_arg5)) :=
  (W4_of_ne m ρ c main_arg5 (by decide)).trans (W3_arg5 m ρ c)

/-- Region 1 leaves the second projection `relu (agg1 + b1) @ W2`. -/
theorem W4_hw2 : W4 m ρ c (Proc.devRef .tc main_v42) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((Cert.KernelIdeal.Region1.array_eq (V3 m ρ) c).trans ?_)
  show Cert.KernelIdeal.Region1.projected (W3 m ρ c (Proc.devRef .tc main_v40)) (W3 m ρ c (Proc.devRef .tc main_v41))
    (W3 m ρ c (Proc.devRef .tc main_arg4)) = _
  rw [W3_agg1, W3_b1, W3_arg4]
  rfl

/-! ## After the third stretch (region 2's entry) -/

/-- The second aggregate. -/
theorem W5_agg2 : W5 m ρ c (Proc.devRef .tc main_v54) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v54) = _
  after_results_simp
  rw [W4_src, W4_dst, W4_norm, W4_hw2]
  rfl
/-- The second bias as a one-row matrix. -/
theorem W5_b2 : W5 m ρ c (Proc.devRef .tc main_v55) = Cert.ReferenceIdeal.Read.val_main_v59 (F := Ideal) (m ((c : Thread nD τ).loc main_arg5)) := by
  show StableHlo.after hostOps2 (W4 m ρ c) (Proc.devRef .tc main_v55) = _
  after_results_simp
  rw [W4_arg5]
  exact Cert.LibRows.shapeCast_row_eq_broadcastInDim _ _ _

/-! ## After region 2 -/

/-- Region 2 leaves the node states `relu (agg2 + b2)`. -/
theorem W6_h2 : W6 m ρ c (Proc.devRef .tc main_v56) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 2).trans ((Cert.KernelIdeal.Region2.array_eq (V5 m ρ) c).trans ?_)
  show Cert.BiasRelu.whole (W5 m ρ c (Proc.devRef .tc main_v54)) (W5 m ρ c (Proc.devRef .tc main_v55)) = _
  rw [W5_agg2, W5_b2]
  rfl

/-! ## The arguments the last stretch and region 3 read

These are read off the END of the fold: an argument array ends at its launch contents, and the last region and the last
stretch of host operations do not write it. -/

theorem W7_arg7 : W7 m ρ c (Proc.devRef .tc main_arg7) = (m ((c : Thread nD τ).loc main_arg7)) :=
  (W8_of_ne m ρ c main_arg7 (by decide)).symm.trans (W8_main_arg7 m ρ c)
theorem W7_arg9 : W7 m ρ c (Proc.devRef .tc main_arg9) = (m ((c : Thread nD τ).loc main_arg9)) :=
  (W8_of_ne m ρ c main_arg9 (by decide)).symm.trans (W8_main_arg9 m ρ c)
theorem W7_arg11 : W7 m ρ c (Proc.devRef .tc main_arg11) = (m ((c : Thread nD τ).loc main_arg11)) :=
  (W8_of_ne m ρ c main_arg11 (by decide)).symm.trans (W8_main_arg11 m ρ c)
theorem W7_arg13 : W7 m ρ c (Proc.devRef .tc main_arg13) = (m ((c : Thread nD τ).loc main_arg13)) :=
  (W8_of_ne m ρ c main_arg13 (by decide)).symm.trans (W8_main_arg13 m ρ c)

theorem W6_arg7 : W6 m ρ c (Proc.devRef .tc main_arg7) = (m ((c : Thread nD τ).loc main_arg7)) := by
  have h : W7 m ρ c (Proc.devRef .tc main_arg7) = W6 m ρ c (Proc.devRef .tc main_arg7) := by
    show StableHlo.after hostOps3 (W6 m ρ c) (Proc.devRef .tc main_arg7) = _
    after_results_simp
  exact h.symm.trans (W7_arg7 m ρ c)
theorem W6_arg9 : W6 m ρ c (Proc.devRef .tc main_arg9) = (m ((c : Thread nD τ).loc main_arg9)) := by
  have h : W7 m ρ c (Proc.devRef .tc main_arg9) = W6 m ρ c (Proc.devRef .tc main_arg9) := by
    show StableHlo.after hostOps3 (W6 m ρ c) (Proc.devRef .tc main_arg9) = _
    after_results_simp
  exact h.symm.trans (W7_arg9 m ρ c)
theorem W6_arg11 : W6 m ρ c (Proc.devRef .tc main_arg11) = (m ((c : Thread nD τ).loc main_arg11)) := by
  have h : W7 m ρ c (Proc.devRef .tc main_arg11) = W6 m ρ c (Proc.devRef .tc main_arg11) := by
    show StableHlo.after hostOps3 (W6 m ρ c) (Proc.devRef .tc main_arg11) = _
    after_results_simp
  exact h.symm.trans (W7_arg11 m ρ c)
theorem W6_arg13 : W6 m ρ c (Proc.devRef .tc main_arg13) = (m ((c : Thread nD τ).loc main_arg13)) := by
  have h : W7 m ρ c (Proc.devRef .tc main_arg13) = W6 m ρ c (Proc.devRef .tc main_arg13) := by
    show StableHlo.after hostOps3 (W6 m ρ c) (Proc.devRef .tc main_arg13) = _
    after_results_simp
  exact h.symm.trans (W7_arg13 m ρ c)

/-- A weight matrix region 3 reads through an input window is, at the region's entry, what it is at the end. -/
theorem W7_arg6 : W7 m ρ c (Proc.devRef .tc main_arg6) = (m ((c : Thread nD τ).loc main_arg6)) :=
  ((W8_arr m ρ c 1).trans (((dat3 (V7 m ρ) c).arrAt_in 1 rfl _).trans (A_eq3 (V7 m ρ) c 1))).symm.trans (W8_main_arg6 m ρ c)
theorem W7_arg8 : W7 m ρ c (Proc.devRef .tc main_arg8) = (m ((c : Thread nD τ).loc main_arg8)) :=
  ((W8_arr m ρ c 3).trans (((dat3 (V7 m ρ) c).arrAt_in 3 rfl _).trans (A_eq3 (V7 m ρ) c 3))).symm.trans (W8_main_arg8 m ρ c)
theorem W7_arg10 : W7 m ρ c (Proc.devRef .tc main_arg10) = (m ((c : Thread nD τ).loc main_arg10)) :=
  ((W8_arr m ρ c 5).trans (((dat3 (V7 m ρ) c).arrAt_in 5 rfl _).trans (A_eq3 (V7 m ρ) c 5))).symm.trans (W8_main_arg10 m ρ c)
theorem W7_arg12 : W7 m ρ c (Proc.devRef .tc main_arg12) = (m ((c : Thread nD τ).loc main_arg12)) :=
  ((W8_arr m ρ c 7).trans (((dat3 (V7 m ρ) c).arrAt_in 7 rfl _).trans (A_eq3 (V7 m ρ) c 7))).symm.trans (W8_main_arg12 m ρ c)

/-! ## After the last stretch (region 3's entry) -/

/-- The node states flattened to `[64, 16384]`. -/
theorem W7_hf : W7 m ρ c (Proc.devRef .tc main_v57) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v57) = _
  after_results_simp
  rw [W6_h2]
  rfl
theorem W7_p1b : W7 m ρ c (Proc.devRef .tc main_v58) = Cert.ReferenceIdeal.Read.val_main_v65 (F := Ideal) (m ((c : Thread nD τ).loc main_arg7)) := by
  show StableHlo.after hostOps3 (W6 m ρ c) (Proc.devRef .tc main_v58) = _
  after_results_simp
  rw [W6_arg7]
  exact Cert.LibRows.shapeCast_row_eq_broadcastInDim _ _ _
theorem W7_p2b : W7 m ρ c (Proc.devRef .tc main_v59) = Cert.ReferenceIdeal.Read.val_main_v70 (F := Ideal) (m ((c : Thread nD τ).loc main_arg9)) := by
  show StableHlo.after hostOps3 (W6 m ρ c) (Proc.devRef .tc main_v59) = _
  after_results_simp
  rw [W6_arg9]
  exact Cert.LibRows.shapeCast_row_eq_broadcastInDim _ _ _
theorem W7_v1b : W7 m ρ c (Proc.devRef .tc main_v60) = Cert.ReferenceIdeal.Read.val_main_v74 (F := Ideal) (m ((c : Thread nD τ).loc main_arg11)) := by
  show StableHlo.after hostOps3 (W6 m ρ c) (Proc.devRef .tc main_v60) = _
  after_results_simp
  rw [W6_arg11]
  exact Cert.LibRows.shapeCast_row_eq_broadcastInDim _ _ _
theorem W7_v2b : W7 m ρ c (Proc.devRef .tc main_v61) = Cert.ReferenceIdeal.Read.val_main_v79 (F := Ideal) (m ((c : Thread nD τ).loc main_arg13)) := by
  show StableHlo.after hostOps3 (W6 m ρ c) (Proc.devRef .tc main_v61) = _
  after_results_simp
  rw [W6_arg13]
  exact Cert.LibRows.shapeCast_row_eq_broadcastInDim _ _ _

/-! ## After region 3: the two results -/

/-- The policy logits the kernel returns are the reference's, as a function of the argument arrays. -/
theorem W8_policy : W8 m ρ c (Proc.devRef .tc main_v62_0)
    = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 9).trans ((Cert.KernelIdeal.Region3.policy_array (V7 m ρ) c).trans ?_)
  show Cert.KernelIdeal.Region3.policy (W7 m ρ c (Proc.devRef .tc main_v57)) (W7 m ρ c (Proc.devRef .tc main_arg6))
    (W7 m ρ c (Proc.devRef .tc main_v58)) (W7 m ρ c (Proc.devRef .tc main_arg8)) (W7 m ρ c (Proc.devRef .tc main_v59)) = _
  rw [W7_hf, W7_arg6, W7_p1b, W7_arg8, W7_p2b]
  rfl

/-- The value the kernel returns is the reference's, as a function of the argument arrays. -/
theorem W8_value : W8 m ρ c (Proc.devRef .tc main_v62_1)
    = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  refine (W8_arr m ρ c 10).trans ((Cert.KernelIdeal.Region3.value_array (V7 m ρ) c).trans ?_)
  show Cert.KernelIdeal.Region3.value (W7 m ρ c (Proc.devRef .tc main_v57)) (W7 m ρ c (Proc.devRef .tc main_arg10))
    (W7 m ρ c (Proc.devRef .tc main_v60)) (W7 m ρ c (Proc.devRef .tc main_arg12)) (W7 m ρ c (Proc.devRef .tc main_v61)) = _
  rw [W7_hf, W7_arg10, W7_v1b, W7_arg12, W7_v2b]
  rfl

end Cert.KernelIdeal.Fold

end
-- ==== Proof.lean ====
/-
  A two-layer graph convolution with policy and value heads: the tiled kernel against its plain reference, at the ideal
  values.

  Both programs compute, from node features `x`, an edge list and the weights,
      deg  = scatter-add of ones at the destinations (self-loops appended),   norm = rsqrt(deg)[src] · rsqrt(deg)[dst],
      agg(h) = scatter-add at the destinations of  h[src] · norm,
      h1 = relu (agg (x @ W1) + b1),   h2 = relu (agg (h1 @ W2) + b2),   hf = h2 reshaped to [64, 16384],
      policy = relu (hf @ p1_w + p1_b) @ p2_w + p2_b,     value = relu (hf @ v1_w + v1_b) @ v2_w + v2_b.
  The reference does every step as one host operation.  The kernel keeps the irregular steps (the index vectors, the
  normalisation, each gather / scale / scatter-add, the reshapes) as the SAME host operations and does the dense steps
  in four pipelined regions: `x @ W1` and `relu (· + b1) @ W2` and `relu (· + b2)` in sixteen blocks of 4096 rows
  each, and both heads in one block.

  At the ideal values a change of float format is the identity and a matrix product into a zero accumulator is the
  plain sum of products, so a block of rows of a product is the product at those rows and a block of a bias-and-ReLU
  is the bias-and-ReLU at those rows; the blocks tile the arrays.  Hence after each region its result array is the
  reference's value of that quantity (Region0 … Region3), the host operations in between carry equal operands to equal
  results (Fold), and the two results the kernel returns are the reference's functions of the arguments.  No law of
  arithmetic beyond `0 + s = s` is used, so the precondition (finite inputs) is not needed for the values.

  The three frames are the generated ones (the reference's is its generated run with the results dropped); the ideal
  pass rewrote nothing, so the kernel's idealization is the kernel's own text read at the ideal values.
-/
import proofs.«111545_j14396730377002_1_alg».proof.Defs
import proofs.«111545_j14396730377002_1_alg».proof.Proof.Gen.Kernel
import proofs.«111545_j14396730377002_1_alg».proof.Proof.Gen.Kernel.Skeleton
import proofs.«111545_j14396730377002_1_alg».proof.Proof.Gen.Kernel.Launch
import proofs.«111545_j14396730377002_1_alg».proof.Proof.Gen.Kernel.Points
import proofs.«111545_j14396730377002_1_alg».proof.Proof.Gen.Kernel.Frame
import proofs.«111545_j14396730377002_1_alg».proof.Proof.Gen.KernelIdeal
import proofs.«111545_j14396730377002_1_alg».proof.Proof.Gen.KernelIdeal.Skeleton
import proofs.«111545_j14396730377002_1_alg».proof.Proof.Gen.KernelIdeal.Launch
import proofs.«111545_j14396730377002_1_alg».proof.Proof.Gen.KernelIdeal.Points
import proofs.«111545_j14396730377002_1_alg».proof.Proof.Gen.KernelIdeal.Frame
import proofs.«111545_j14396730377002_1_alg».proof.Proof.Gen.ReferenceIdeal
import proofs.«111545_j14396730377002_1_alg».proof.Proof.Gen.ReferenceIdeal.Run
import proofs.«111545_j14396730377002_1_alg».proof.Proof.Gen.ReferenceIdeal.Read
import proofs.«111545_j14396730377002_1_alg».proof.Proof.Gen.Pre_finite_inputs
import proofs.«111545_j14396730377002_1_alg».proof.Proof.KernelRun
import proofs.«111545_j14396730377002_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-! ## The values -/

/-- The idealized kernel's run: both results at the reference's stage functions of the kernel's own argument arrays,
    the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v62_0)
        = Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v62_1)
        = Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
    ⟨(h c _ (Cert.KernelIdeal.Gen.mem_uc Cert.KernelIdeal.main_v62_0 (by decide))).trans (Cert.KernelIdeal.Fold.W8_policy m ρ c),
     (h c _ (Cert.KernelIdeal.Gen.mem_uc Cert.KernelIdeal.main_v62_1 (by decide))).trans (Cert.KernelIdeal.Fold.W8_value m ρ c),
     (h c _ (Cert.KernelIdeal.Gen.mem_uc Cert.KernelIdeal.main_arg0 (by decide))).trans (Cert.KernelIdeal.Gen.W8_main_arg0 m ρ c),
     (h c _ (Cert.KernelIdeal.Gen.mem_uc Cert.KernelIdeal.main_arg1 (by decide))).trans (Cert.KernelIdeal.Gen.W8_main_arg1 m ρ c),
     (h c _ (Cert.KernelIdeal.Gen.mem_uc Cert.KernelIdeal.main_arg2 (by decide))).trans (Cert.KernelIdeal.Gen.W8_main_arg2 m ρ c),
     (h c _ (Cert.KernelIdeal.Gen.mem_uc Cert.KernelIdeal.main_arg3 (by decide))).trans (Cert.KernelIdeal.Gen.W8_main_arg3 m ρ c),
     (h c _ (Cert.KernelIdeal.Gen.mem_uc Cert.KernelIdeal.main_arg4 (by decide))).trans (Cert.KernelIdeal.Gen.W8_main_arg4 m ρ c),
     (h c _ (Cert.KernelIdeal.Gen.mem_uc Cert.KernelIdeal.main_arg5 (by decide))).trans (Cert.KernelIdeal.Gen.W8_main_arg5 m ρ c),
     (h c _ (Cert.KernelIdeal.Gen.mem_uc Cert.KernelIdeal.main_arg6 (by decide))).trans (Cert.KernelIdeal.Gen.W8_main_arg6 m ρ c),
     (h c _ (Cert.KernelIdeal.Gen.mem_uc Cert.KernelIdeal.main_arg7 (by decide))).trans (Cert.KernelIdeal.Gen.W8_main_arg7 m ρ c),
     (h c _ (Cert.KernelIdeal.Gen.mem_uc Cert.KernelIdeal.main_arg8 (by decide))).trans (Cert.KernelIdeal.Gen.W8_main_arg8 m ρ c),
     (h c _ (Cert.KernelIdeal.Gen.mem_uc Cert.KernelIdeal.main_arg9 (by decide))).trans (Cert.KernelIdeal.Gen.W8_main_arg9 m ρ c),
     (h c _ (Cert.KernelIdeal.Gen.mem_uc Cert.KernelIdeal.main_arg10 (by decide))).trans (Cert.KernelIdeal.Gen.W8_main_arg10 m ρ c),
     (h c _ (Cert.KernelIdeal.Gen.mem_uc Cert.KernelIdeal.main_arg11 (by decide))).trans (Cert.KernelIdeal.Gen.W8_main_arg11 m ρ c),
     (h c _ (Cert.KernelIdeal.Gen.mem_uc Cert.KernelIdeal.main_arg12 (by decide))).trans (Cert.KernelIdeal.Gen.W8_main_arg12 m ρ c),
     (h c _ (Cert.KernelIdeal.Gen.mem_uc Cert.KernelIdeal.main_arg13 (by decide))).trans (Cert.KernelIdeal.Gen.W8_main_arg13 m ρ c)⟩)
    (Cert.KernelIdeal.RunAll.run_all m ρ)

/-- From memories that agree on the arguments the two programs end with equal results: the kernel's are the
    reference's stage functions of the arguments (`kernel_run`), and so are the reference's own. -/
theorem algebraic : Cert.algebraic_KernelIdeal_ReferenceIdeal := by
  intro m ρ m' ρ' _ hagree
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    kernel_run m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13⟩ := hagree c
  refine ⟨(h c).1.trans ((Cert.ReferenceIdeal.Read.val_main_v72_eq m' c).trans ?_), (h c).2.1.trans ((Cert.ReferenceIdeal.Read.val_main_v81_eq m' c).trans ?_), (h c).2.2⟩
  · rw [e0, e1, e2, e3, e4, e5, e6, e7, e8, e9]
  · rw [e0, e1, e2, e3, e4, e5, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
